-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S8192x4096 .f32) (main_arg1 : FVec F S4096x4096 .f32) (main_arg2 : FVec F S4096x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S256x4096 : Shape := ⟨2, ![256, 4096]⟩
abbrev S1024x512 : Shape := ⟨2, ![1024, 512]⟩
abbrev S2048x512 : Shape := ⟨2, ![2048, 512]⟩
abbrev S1024x2048 : Shape := ⟨2, ![1024, 2048]⟩

abbrev nBuf : Space → Nat
  | .hbm => 5
  | .vmem => 13
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x4096, .f32⟩
  | .hbm, ⟨3, _⟩ => ⟨S4096x4096, .bf16⟩
  | .hbm, ⟨4, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S256x4096, .bf16⟩
  | .local _ .vmem, ⟨5, _⟩ => ⟨S256x4096, .bf16⟩
  | .local _ .vmem, ⟨6, _⟩ => ⟨S1024x512, .f32⟩
  | .local _ .vmem, ⟨7, _⟩ => ⟨S1024x512, .f32⟩
  | .local _ .vmem, ⟨8, _⟩ => ⟨S2048x512, .bf16⟩
  | .local _ .vmem, ⟨9, _⟩ => ⟨S2048x512, .bf16⟩
  | .local _ .vmem, ⟨10, _⟩ => ⟨S1024x2048, .f32⟩
  | .local _ .vmem, ⟨11, _⟩ => ⟨S1024x2048, .f32⟩
  | .local _ .vmem, ⟨12, _⟩ => ⟨S1024x2048, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![8, 2, 8], ![false, false, false]⟩

def k1_cond2 (i : grid1.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

class Facts₀ : Prop where
  inb_S256x4096_S256x4096_0_0 : ∀ a, (![0, 0] : Fin 2 → Nat) a + S256x4096.size a ≤ S256x4096.size a
  h_S256x4096 : 0 < S256x4096.numel
  bitsLt_bf16_f32 : FTy.bits .bf16 < FTy.bits .f32
  packedbf16_S256x4096_S256x4096_0_0 : (Rect.unit (s := S256x4096) ![0, 0] S256x4096.size inb_S256x4096_S256x4096_0_0).PackedRows (EltTy.packing .bf16)
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x512_S1024x512_0_0 : ∀ a, (![0, 0] : Fin 2 → Nat) a + S1024x512.size a ≤ S1024x512.size a
  h_S1024x512 : 0 < S1024x512.numel
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  dot_S1024x512_S2048x512_S1024x2048_1_1_0_0_n_n_wf : DotDims.WF S1024x512 S2048x512 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .f32 = 32 ∨ (Rect.block (s := S4096x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S4096x4096.size a
  hwx0_1 : ∀ i : grid0.Coords, EltTy.bits .f32 = 32 ∨ (Rect.block (s := S4096x4096) S256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S4096x4096.size a
  hwx0_2 : ∀ i : grid0.Coords, EltTy.bits .bf16 = 32 ∨ (Rect.block (s := S4096x4096) S256x4096.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S8192x4096.size a
  hwx1_0 : ∀ i : grid1.Coords, EltTy.bits .f32 = 32 ∨ (Rect.block (s := S8192x4096) S1024x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x512.size a ≤ S4096x4096.size a
  hwx1_1 : ∀ i : grid1.Coords, EltTy.bits .bf16 = 32 ∨ (Rect.block (s := S4096x4096) S2048x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x2048.size a ≤ S8192x4096.size a
  hwx1_2 : ∀ i : grid1.Coords, EltTy.bits .f32 = 32 ∨ (Rect.block (s := S8192x4096) S1024x2048.size (cc1_transform_2 i) (hinb1_2 i)).WholeWords (EltTy.packing .f32)

variable [Facts₀]

def dot_S1024x512_S2048x512_S1024x2048_1_1_0_0_n_n : DotDims S1024x512 S2048x512 S1024x2048 where
  lhsContracting := [1]
  rhsContracting := [1]
  lhsNonContracting := [0]
  rhsNonContracting := [0]
  lhsBatch := []
  rhsBatch := []
  wf := dot_S1024x512_S2048x512_S1024x2048_1_1_0_0_n_n_wf

abbrev win0_0 : Pipeline.Window sig grid0 :=
  Pipeline.Window.ofSpec (Memref.whole main_arg1) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S2048x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1024x2048.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]

class Facts₀ : Prop where
  transposes_S4096x4096_S4096x4096_1_0 : S4096x4096.Transposes [1, 0] S4096x4096
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.Kernel.MaskData.lean ====
/-
  The masking kernel  mw = weight ⊙ mask  (both 4096 × 4096, the product rounded to the narrower float format) on a grid of
  16 row blocks of 256 rows: what the proof says each block's output buffer holds.  Point t works on rows
  256·t … 256·t + 255; its body loads the two input blocks whole and stores their entrywise product whole.
-/
import proofs.«154603_j17849884082830_2_alg».proof.Proof.Gen.Kernel.Launch
import proofs.«154603_j17849884082830_2_alg».proof.Proof.Gen.Kernel.Skeleton
import proofs.«154603_j17849884082830_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
-- the TensorCore's buffer contents when the region is entered
variable (V : (c : Dev nD) → (b : Ref sig .tc) → Buf (Elt F) ((c : Thread nD τ).loc b))

/-- Window `w`'s block at point `t` of the masking grid, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The proof data of the masking pipeline on core `c`: the arrays as the region finds them; after the body at point
    `t` each input's buffer at its block and the output's at the entrywise product of the two blocks (the skeleton's
    `k0_pay1`); the class's invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay1 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay1 (iblk0 V c 0 t) (iblk0 V c 1 t) := by dsimp only [dat0]

end

end Cert.Kernel.Hand
end
-- ==== Proof.Kernel.MaskBody.lean ====
/-
  The masking kernel's body at one point of its grid: both input blocks loaded whole, multiplied entrywise, rounded to
  the narrower float format and stored whole into the output block. Stated for any float instance.
-/
import proofs.«154603_j17849884082830_2_alg».proof.Proof.Kernel.MaskData
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The two-coordinate offset `![0, 0]` is the zero offset. -/
theorem hz2 : (![0, 0] : Fin 2 → Nat) = fun _ => 0 := by
  funext a; fin_cases a <;> rfl

section
-- the TensorCore's buffer contents when the region is entered
variable (V : (c : Dev nD) → (b : Ref sig .tc) → Buf (Elt F) ((c : Thread nD τ).loc b))

/-- The weight's staging buffer holds the weight's block at every point, fetched there or not: the window is an
    input, never idle and uncut, and the body leaves the block in place. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- The mask's staging buffer holds the mask's block at every point, likewise. -/
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

end

set_option maxHeartbeats 1000000 in
/-- The body on whole staging memrefs: the two inputs' at read contents `x0`, `x1`, the output's at anything. It
    runs to the continuation holding the inputs' as they were and the output's at the rounded entrywise product
    `k0_pay1 x0 x1`: the one store is through the whole-block rectangle, so what it leaves reads as its payload,
    and each load through that rectangle reads its buffer's contents. -/
theorem sound_kernel0 (c : Dev nD) (E : Set ℕ) (i : grid0.Coords)
    (arg1 : Memref sig .tc .vmem S256x4096 .f32) (harg1 : arg1.IsWhole)
    (arg2 : Memref sig .tc .vmem S256x4096 .f32) (harg2 : arg2.IsWhole)
    (arg3 : Memref sig .tc .vmem S256x4096 .bf16) (harg3 : arg3.IsWhole)
    (x0 x1 : Vec F S256x4096 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (k0_pay1 x0 x1)) -∗ K ⟨⟩))
      ⊢ wp frame (wpE (defs₀ (F := F)) Variants.none c none) E (cc0__mask_kernel i arg1 harg1 arg2 harg2 arg3 harg3) K := by
  simp only [cc0__mask_kernel_eq_skeleton]; unfold cc0__mask_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_singleton_self _, View.mem_set_unit_zero hz2 inb_S256x4096_S256x4096_0_0 y⟩),
    View.canon_unit_zero hz2]
  simp only [View.readAt_eq_ld, View.ld_unit_zero (S := S256x4096) hz2]

section
variable (V : (c : Dev nD) → (b : Ref sig .tc) → Buf (Elt F) ((c : Thread nD τ).loc b))

/-- What the body is called with at point `t`: the invariant, what the core owes, and the three windows' current
    staging buffers one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The masking pipeline's body obligation, at every point. -/
theorem body_obligation0 (c : Dev nD) : BodyObligation (dat0 (F := F) V c) (defs₀ (F := F)) Variants.none () Set.univ := fun t => by
  rw [bigSep_W0, bigSep_W0]
  exact sound_body0 V c t

end

end Cert.Kernel.Hand
end
-- ==== Proof.Kernel.AccData.lean ====
/-
  The tiled product  out = x · mwᵀ  (x of 8192 × 4096, mw of 4096 × 4096) on the grid 8 × 2 × 8: what the proof says
  the accumulator holds.

  Point t = (bi · 2 + bj) · 8 + kb of the grid works on the output tile (bi, bj) of 1024 × 2048 entries and on K-block kb
  (512 columns of x and of mw).  The body keeps one 1024 × 2048 accumulator across the points: at kb = 0 it is set to
  zero, at every point the product of the point's x block with the transpose of its mw block is added to it, and at
  kb = 7 it is copied into the output tile.  `accAt n` is the accumulator after point n, by recursion on the point: the
  body's one step from zero when n is the first K-block of a tile, from `accAt (n - 1)` otherwise.
-/
import proofs.«154603_j17849884082830_2_alg».proof.Proof.Gen.Kernel.Launch
import proofs.«154603_j17849884082830_2_alg».proof.Proof.Gen.Kernel.Skeleton
import proofs.«154603_j17849884082830_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
-- the TensorCore's buffer contents when the region is entered
variable (V : (c : Dev nD) → (b : Ref sig .tc) → Buf (Elt F) ((c : Thread nD τ).loc b))

/-- Window `w`'s block at point `t` of the product's grid, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator after point `n`: one step of the body (`a ↦ a + x_block · mw_blockᵀ`, the skeleton's `k1_pay2`) from the
    zero matrix (`k1_pay1`) at the first K-block of a tile, from what point `n - 1` left otherwise. -/
def accAt (c : Dev nD) : (n : ℕ) → n < cfg1.N → Vec F S1024x2048 .f32
  | 0, hn => k1_pay2 (iblk1 V c 0 ⟨0, hn⟩) (iblk1 V c 1 ⟨0, hn⟩) (k1_pay1 (F := F))
  | n + 1, hn => k1_pay2 (iblk1 V c 0 ⟨n + 1, hn⟩) (iblk1 V c 1 ⟨n + 1, hn⟩)
      (if (n + 1) % 8 = 0 then k1_pay1 (F := F) else accAt c n (Nat.lt_of_succ_lt hn))

/-- At the first K-block of a tile the accumulator is one step from zero. -/
theorem accAt_first (c : Dev nD) (t : Fin cfg1.N) (h : t.val % 8 = 0) :
    accAt V c t.val t.isLt = k1_pay2 (iblk1 V c 0 t) (iblk1 V c 1 t) (k1_pay1 (F := F)) := by
  obtain ⟨n, hn⟩ := t
  cases n with
  | zero => rfl
  | succ n => exact congrArg (k1_pay2 _ _) (if_pos h)

/-- At a later K-block it is one step from what the point before left. -/
theorem accAt_later (c : Dev nD) (t : Fin cfg1.N) (h : ¬t.val % 8 = 0) :
    accAt V c t.val t.isLt = k1_pay2 (iblk1 V c 0 t) (iblk1 V c 1 t)
      (accAt V c (t.val - 1) (Nat.lt_of_le_of_lt (Nat.sub_le _ _) t.isLt)) := by
  obtain ⟨n, hn⟩ := t
  cases n with
  | zero => exact absurd (Nat.zero_mod _) h
  | succ n => exact congrArg (k1_pay2 _ _) (if_neg h)

/-- The accumulator as a whole scoped buffer of the kernel's own. -/
abbrev scM : Memref sig .tc .vmem S1024x2048 .f32 := Memref.whole cc1_scratch0

/-- The scoped buffers of the core that are neither the product's staging buffers nor its accumulator (the staging
    buffers of the masking kernel), each at some contents, beside the accumulator's part `P`. -/
def scopedWith (c : Dev nD) (P : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ P)

/-- The class's invariant (every scoped buffer no window stages at some contents, the generator register at some
    state) with the accumulator as a memref owned at some contents. -/
theorem PhiA1_eq (c : Dev nD) :
    (Pipeline.ΦA spec1 c : sProp 𝕄)
      = iprop(scopedWith c (iprop(∃ d, owns (c : Thread nD τ) scM fullShare d)) ∗ (∃ r, prngReg c r)) := by
  unfold Pipeline.ΦA scopedWith; rw [scopedRest1_eq]; simp only [scM, owns_whole]; try rfl

/-- The region's invariant before position `n`: before the first point the class's (the accumulator at anything);
    afterwards the accumulator at what the point before left (`accAt`), the other scoped buffers at anything and the
    generator register at some state. -/
def PhiS (c : Dev nD) : (n : ℕ) → n ≤ cfg1.N → sProp 𝕄
  | 0, _ => Pipeline.ΦA spec1 c
  | n + 1, hn => iprop(scopedWith c (owns (c : Thread nD τ) scM fullShare (accAt V c n hn)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(scopedWith c (owns (c : Thread nD τ) scM fullShare (accAt V c n hn)) ∗ (∃ r, prngReg c r)) := rfl

theorem PhiS_pos (c : Dev nD) (n : ℕ) (h : n ≤ cfg1.N) (hz : n ≠ 0) :
    PhiS V c n h = iprop(scopedWith c (owns (c : Thread nD τ) scM fullShare (accAt V c (n - 1) (by omega))) ∗ (∃ r, prngReg c r)) := by
  cases n with
  | zero => exact absurd rfl hz
  | succ n => rfl

/-- The proof data of the product's pipeline on core `c`: the arrays as the region finds them; after the body at point
    `t` each input's buffer at its block and the output's at the accumulator's contents (consulted only where the tile
    is written back, at the last K-block); the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => accAt V c t.val t.isLt
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = accAt V c t.val t.isLt := by dsimp only [dat1]

theorem PhiS_castSucc (c : Dev nD) (t : Fin cfg1.N) :
    (dat1 V c).Φ t.castSucc = PhiS V c t.val (Nat.le_of_lt t.isLt) := by
  dsimp only [dat1]; simp only [Fin.coe_castSucc]

end

end Cert.Kernel.Hand
end
-- ==== Proof.Kernel.AccBody.lean ====
/-
  The body of the tiled product at a grid point, case by case: at the first K-block of an output tile (kb = 0) the
  accumulator is zeroed and then takes one step; at a middle K-block it takes one step from what it held; at the last
  (kb = 7) it takes one step and is copied into the tile's output buffer.  With the grid's 8 K-blocks no point is both
  first and last.  In every case the two input blocks are read and left as they were.
-/
import proofs.«154603_j17849884082830_2_alg».proof.Proof.Kernel.AccData
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's branch conditions, decided over the grid -/

/-- The condition of the body's first `scf.if` (the K-block index is 0), from the grid coordinates. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- The condition of its second (the K-block index is 7, the last). -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := fun _ => rfl
theorem liveAt1_1 : ∀ t : Fin cfg1.N, cfg1.idle 1 (grid1.coords t) = false := fun _ => rfl
/-- Away from the last K-block the output tile's buffer is not stored into, -/
theorem idleAt1_2 : ∀ t : Fin cfg1.N, ¬cond1_1 (grid1.coords t) → cfg1.idle 2 (grid1.coords t) = true := by decide +kernel
/-- nor written back; -/
theorem noFlush1_2 : ∀ t : Fin cfg1.N, ¬cond1_1 (grid1.coords t) → (cfg1.win 2).flush t = false := by decide +kernel
/-- at the last K-block it is stored into. -/
theorem liveAt1_2 : ∀ t : Fin cfg1.N, cond1_1 (grid1.coords t) → cfg1.idle 2 (grid1.coords t) = false := by decide +kernel

/-- The zero offsets of a whole-block access, however spelt. -/
theorem hzAcc : (![0, 0] : Fin 2 → Nat) = fun _ => 0 := by funext a; fin_cases a <;> rfl

set_option maxHeartbeats 1000000 in
/-- A MIDDLE K-block: the accumulator at `xs` takes one step; the inputs and the output tile's buffer are left. -/
theorem sound_kernel1_mid (c : Dev nD) (E : Set ℕ) (i : grid1.Coords) (arg3 : Memref sig .tc .vmem S1024x512 .f32) (harg3 : arg3.IsWhole) (arg4 : Memref sig .tc .vmem S2048x512 .bf16) (harg4 : arg4.IsWhole) (arg5 : Memref sig .tc .vmem S1024x2048 .f32) (harg5 : arg5.IsWhole) (arg6 : Memref sig .tc .vmem S1024x2048 .f32) (harg6 : arg6.IsWhole)
    (hc0 : ¬cond1_0 i) (hc1 : ¬cond1_1 i)
    (x0 : Vec F S1024x512 .f32) (x1 : Vec F S2048x512 .bf16) (y : Vec F S1024x2048 .f32) (xs : Vec F S1024x2048 .f32) (K : PUnit → sProp 𝕄) :
    iprop(owns (c : Thread nD τ) arg3 fullShare x0 ∗ owns (c : Thread nD τ) arg4 fullShare x1 ∗ owns (c : Thread nD τ) arg5 fullShare y ∗ owns (c : Thread nD τ) arg6 fullShare xs
        ∗ (iprop(owns (c : Thread nD τ) arg3 fullShare x0 ∗ owns (c : Thread nD τ) arg4 fullShare x1 ∗ owns (c : Thread nD τ) arg5 fullShare y ∗ owns (c : Thread nD τ) arg6 fullShare (k1_pay2 x0 x1 xs)) -∗ K ⟨⟩))
      ⊢ wp frame (wpE (defs₀ (F := F)) Variants.none c none) E (cc1__matmul_kernel i arg3 harg3 arg4 harg4 arg5 harg5 arg6 harg6) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; exact hf2
    iexact H2
  iexists _; isplitr
  swap; · iexact HS
  ipureintro
  rw [View.read_writes_eq_canon _ _ _ (fun y => ⟨_, List.mem_singleton_self _, View.mem_set_unit_zero hzAcc Facts₀.inb_S1024x2048_S1024x2048_0_0 y⟩), View.canon_unit_zero hzAcc]
  simp only [View.readAt_eq_ld, View.ld_unit_zero (S := S1024x512) hzAcc, View.ld_unit_zero (S := S2048x512) hzAcc, View.ld_unit_zero (S := S1024x2048) hzAcc]

set_option maxHeartbeats 1000000 in
/-- The FIRST K-block of a tile: the accumulator, at anything, is zeroed and takes one step. -/
theorem sound_kernel1_first (c : Dev nD) (E : Set ℕ) (i : grid1.Coords) (arg3 : Memref sig .tc .vmem S1024x512 .f32) (harg3 : arg3.IsWhole) (arg4 : Memref sig .tc .vmem S2048x512 .bf16) (harg4 : arg4.IsWhole) (arg5 : Memref sig .tc .vmem S1024x2048 .f32) (harg5 : arg5.IsWhole) (arg6 : Memref sig .tc .vmem S1024x2048 .f32) (harg6 : arg6.IsWhole)
    (hc0 : cond1_0 i) (hc1 : ¬cond1_1 i)
    (x0 : Vec F S1024x512 .f32) (x1 : Vec F S2048x512 .bf16) (y : Vec F S1024x2048 .f32) (K : PUnit → sProp 𝕄) :
    iprop(owns (c : Thread nD τ) arg3 fullShare x0 ∗ owns (c : Thread nD τ) arg4 fullShare x1 ∗ owns (c : Thread nD τ) arg5 fullShare y ∗ (∃ d, owns (c : Thread nD τ) arg6 fullShare d)
        ∗ (iprop(owns (c : Thread nD τ) arg3 fullShare x0 ∗ owns (c : Thread nD τ) arg4 fullShare x1 ∗ owns (c : Thread nD τ) arg5 fullShare y ∗ owns (c : Thread nD τ) arg6 fullShare (k1_pay2 x0 x1 (k1_pay1 (F := F)))) -∗ K ⟨⟩))
      ⊢ wp frame (wpE (defs₀ (F := F)) Variants.none c none) E (cc1__matmul_kernel i arg3 harg3 arg4 harg4 arg5 harg5 arg6 harg6) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%ds, %fs, -, HS⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; exact hf2
    iexact H2
  iexists _; isplitr
  swap; · iexact HS
  ipureintro
  rw [View.read_writes_eq_canon _ _ _ (fun y => ⟨_, List.mem_cons.mpr (Or.inl rfl), View.mem_set_unit_zero hzAcc Facts₀.inb_S1024x2048_S1024x2048_0_0 y⟩), View.canon_cons_unit_zero hzAcc]
  sl_unfold_run_names
  rw [View.readCov_unit_zero _ hzAcc]
  simp only [View.readAt_eq_ld, View.ld_unit_zero (S := S1024x512) hzAcc, View.ld_unit_zero (S := S2048x512) hzAcc, View.ld_unit_zero (S := S1024x2048) hzAcc]

set_option maxHeartbeats 1000000 in
/-- The LAST K-block of a tile: the accumulator takes one step and is copied into the tile's output buffer. -/
theorem sound_kernel1_last (c : Dev nD) (E : Set ℕ) (i : grid1.Coords) (arg3 : Memref sig .tc .vmem S1024x512 .f32) (harg3 : arg3.IsWhole) (arg4 : Memref sig .tc .vmem S2048x512 .bf16) (harg4 : arg4.IsWhole) (arg5 : Memref sig .tc .vmem S1024x2048 .f32) (harg5 : arg5.IsWhole) (arg6 : Memref sig .tc .vmem S1024x2048 .f32) (harg6 : arg6.IsWhole)
    (hc0 : ¬cond1_0 i) (hc1 : cond1_1 i)
    (x0 : Vec F S1024x512 .f32) (x1 : Vec F S2048x512 .bf16) (xs : Vec F S1024x2048 .f32) (K : PUnit → sProp 𝕄) :
    iprop(owns (c : Thread nD τ) arg3 fullShare x0 ∗ owns (c : Thread nD τ) arg4 fullShare x1 ∗ (∃ d, owns (c : Thread nD τ) arg5 fullShare d) ∗ owns (c : Thread nD τ) arg6 fullShare xs
        ∗ (iprop(owns (c : Thread nD τ) arg3 fullShare x0 ∗ owns (c : Thread nD τ) arg4 fullShare x1 ∗ owns (c : Thread nD τ) arg5 fullShare (k1_pay2 x0 x1 xs) ∗ owns (c : Thread nD τ) arg6 fullShare (k1_pay2 x0 x1 xs)) -∗ K ⟨⟩))
      ⊢ wp frame (wpE (defs₀ (F := F)) Variants.none c none) E (cc1__matmul_kernel i arg3 harg3 arg4 harg4 arg5 harg5 arg6 harg6) K := by
  simp only [cc1__matmul_kernel_eq_skeleton]; unfold cc1__matmul_kernel_skel
  unfold owns
  iintro ⟨⟨%f0, %hf0, H0⟩, ⟨%f1, %hf1, H1⟩, ⟨%d2, %f2, -, H2⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    rw [View.read_writes_eq_canon _ _ _ (fun y => ⟨_, List.mem_singleton_self _, View.mem_set_unit_zero hzAcc Facts₀.inb_S1024x2048_S1024x2048_0_0 y⟩), View.canon_unit_zero hzAcc]
    sl_unfold_run_names
    rw [View.readCov_unit_zero _ hzAcc]
    simp only [View.readAt_eq_ld, View.ld_unit_zero (S := S1024x512) hzAcc, View.ld_unit_zero (S := S2048x512) hzAcc, View.ld_unit_zero (S := S1024x2048) hzAcc]
  iexists _; isplitr
  swap; · iexact HS
  ipureintro
  sl_unfold_run_names
  rw [View.read_writes_eq_canon _ _ _ (fun y => ⟨_, List.mem_singleton_self _, View.mem_set_unit_zero hzAcc Facts₀.inb_S1024x2048_S1024x2048_0_0 y⟩), View.canon_unit_zero hzAcc]
  simp only [View.readAt_eq_ld, View.ld_unit_zero (S := S1024x512) hzAcc, View.ld_unit_zero (S := S2048x512) hzAcc, View.ld_unit_zero (S := S1024x2048) hzAcc]

section
variable (V : (c : Dev nD) → (b : Ref sig .tc) → Buf (Elt F) ((c : Thread nD τ).loc b))

/-! ## The inputs' staging buffers hold their blocks -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4000000 in
/-- The body at any point: which of the three cases the point is in is read off its position in the tile's run of 8
    K-blocks; the invariant hands the body the accumulator at what the point before left (at anything before the very
    first point) and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  have hN : t.val < 128 := lt_of_lt_of_eq t.isLt (show cfg1.N = 128 from N_1)
  by_cases h0 : t.val % 8 = 0
  · have h1 : ¬t.val % 8 = 7 := by omega
    rw [Dat.leavesExact_idle (dat1 V c) 2 t (idleAt1_2 t (fun h => h1 ((hcond1_1 t).mp h))) (noFlush1_2 t (fun h => h1 ((hcond1_1 t).mp h)))]
    rw [accAt_first V c t h0]
    by_cases hz : t.val = 0
    · rw [PhiS_castSucc V c t, PhiS_zero V c _ _ hz, PhiA1_eq]; unfold scopedWith
      iintro ⟨⟨⟨A0, A1, A2, A3, A4, A5, HS⟩, Hg⟩, Ho, ⟨%d0, H0⟩, ⟨%d1, H1⟩, ⟨%d2, H2⟩⟩
      iapply (sound_kernel1_first c Set.univ (grid1.coords t) _ _ _ _ _ _ _ _ ((hcond1_0 t).mpr h0) (fun h => h1 ((hcond1_1 t).mp h)) (iblk1 V c 0 t) (iblk1 V c 1 t) ((dat1 V c).before 2 t d2) _)
      isplitl [H0]; · iexact H0
      isplitl [H1]; · iexact H1
      isplitl [H2]; · iexact H2
      isplitl [HS]; · iexact HS
      iintro ⟨H0, H1, H2, HS⟩
      isplitl [A0 A1 A2 A3 A4 A5 HS Hg]
      · isplitl [A0 A1 A2 A3 A4 A5 HS]
        · isplitl [A0]; · iexact A0
          isplitl [A1]; · iexact A1
          isplitl [A2]; · iexact A2
          isplitl [A3]; · iexact A3
          isplitl [A4]; · iexact A4
          isplitl [A5]; · iexact A5
          iexact HS
        iexact Hg
      isplitl [Ho]; · iexact Ho
      isplitl [H0]; · iexact H0
      isplitl [H1]; · iexact H1
      iexists _; iexact H2
    · rw [PhiS_castSucc V c t, PhiS_pos V c _ _ hz]; unfold scopedWith
      iintro ⟨⟨⟨A0, A1, A2, A3, A4, A5, HS⟩, Hg⟩, Ho, ⟨%d0, H0⟩, ⟨%d1, H1⟩, ⟨%d2, H2⟩⟩
      iapply (sound_kernel1_first c Set.univ (grid1.coords t) _ _ _ _ _ _ _ _ ((hcond1_0 t).mpr h0) (fun h => h1 ((hcond1_1 t).mp h)) (iblk1 V c 0 t) (iblk1 V c 1 t) ((dat1 V c).before 2 t d2) _)
      isplitl [H0]; · iexact H0
      isplitl [H1]; · iexact H1
      isplitl [H2]; · iexact H2
      isplitl [HS]; · iexists _; iexact HS
      iintro ⟨H0, H1, H2, HS⟩
      isplitl [A0 A1 A2 A3 A4 A5 HS Hg]
      · isplitl [A0 A1 A2 A3 A4 A5 HS]
        · isplitl [A0]; · iexact A0
          isplitl [A1]; · iexact A1
          isplitl [A2]; · iexact A2
          isplitl [A3]; · iexact A3
          isplitl [A4]; · iexact A4
          isplitl [A5]; · iexact A5
          iexact HS
        iexact Hg
      isplitl [Ho]; · iexact Ho
      isplitl [H0]; · iexact H0
      isplitl [H1]; · iexact H1
      iexists _; iexact H2
  · have hz : t.val ≠ 0 := fun h => h0 (by rw [h])
    rw [accAt_later V c t h0]
    rw [PhiS_castSucc V c t, PhiS_pos V c _ _ hz]; unfold scopedWith
    by_cases h1 : t.val % 8 = 7
    · rw [show (dat1 V c).leavesExact 2 t = owns (c : Thread nD τ) (st1_2 t) fullShare ((dat1 V c).after 2 t) from by
        unfold Dat.leavesExact; rw [liveAt1_2 t ((hcond1_1 t).mpr h1)], after1_2, accAt_later V c t h0]
      iintro ⟨⟨⟨A0, A1, A2, A3, A4, A5, HS⟩, Hg⟩, Ho, ⟨%d0, H0⟩, ⟨%d1, H1⟩, ⟨%d2, H2⟩⟩
      iapply (sound_kernel1_last c Set.univ (grid1.coords t) _ _ _ _ _ _ _ _ (fun h => h0 ((hcond1_0 t).mp h)) ((hcond1_1 t).mpr h1) (iblk1 V c 0 t) (iblk1 V c 1 t) _ _)
      isplitl [H0]; · iexact H0
      isplitl [H1]; · iexact H1
      isplitl [H2]; · iexists _; iexact H2
      isplitl [HS]; · iexact HS
      iintro ⟨H0, H1, H2, HS⟩
      isplitl [A0 A1 A2 A3 A4 A5 HS Hg]
      · isplitl [A0 A1 A2 A3 A4 A5 HS]
        · isplitl [A0]; · iexact A0
          isplitl [A1]; · iexact A1
          isplitl [A2]; · iexact A2
          isplitl [A3]; · iexact A3
          isplitl [A4]; · iexact A4
          isplitl [A5]; · iexact A5
          iexact HS
        iexact Hg
      isplitl [Ho]; · iexact Ho
      isplitl [H0]; · iexact H0
      isplitl [H1]; · iexact H1
      iexact H2
    · rw [Dat.leavesExact_idle (dat1 V c) 2 t (idleAt1_2 t (fun h => h1 ((hcond1_1 t).mp h))) (noFlush1_2 t (fun h => h1 ((hcond1_1 t).mp h)))]
      iintro ⟨⟨⟨A0, A1, A2, A3, A4, A5, HS⟩, Hg⟩, Ho, ⟨%d0, H0⟩, ⟨%d1, H1⟩, ⟨%d2, H2⟩⟩
      iapply (sound_kernel1_mid c Set.univ (grid1.coords t) _ _ _ _ _ _ _ _ (fun h => h0 ((hcond1_0 t).mp h)) (fun h => h1 ((hcond1_1 t).mp h)) (iblk1 V c 0 t) (iblk1 V c 1 t) ((dat1 V c).before 2 t d2) _ _)
      isplitl [H0]; · iexact H0
      isplitl [H1]; · iexact H1
      isplitl [H2]; · iexact H2
      isplitl [HS]; · iexact HS
      iintro ⟨H0, H1, H2, HS⟩
      isplitl [A0 A1 A2 A3 A4 A5 HS Hg]
      · isplitl [A0 A1 A2 A3 A4 A5 HS]
        · isplitl [A0]; · iexact A0
          isplitl [A1]; · iexact A1
          isplitl [A2]; · iexact A2
          isplitl [A3]; · iexact A3
          isplitl [A4]; · iexact A4
          isplitl [A5]; · iexact A5
          iexact HS
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class's back: the accumulator's named contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 128 := N_1; omega), PhiA1_eq]
  unfold scopedWith
  iintro ⟨⟨A0, A1, A2, A3, A4, A5, HS⟩, Hg⟩
  isplitl [A0 A1 A2 A3 A4 A5 HS]
  · isplitl [A0]; · iexact A0
    isplitl [A1]; · iexact A1
    isplitl [A2]; · iexact A2
    isplitl [A3]; · iexact A3
    isplitl [A4]; · iexact A4
    isplitl [A5]; · iexact A5
    iexists _; iexact HS
  iexact Hg

end

end Cert.Kernel.Hand
end
-- ==== Proof.Kernel.Run.lean ====
/-
  The whole program as two kernel regions one after the other, and what its run leaves.

  The buffers' contents are followed through the program: at launch every buffer holds its launch contents; the masking
  region rewrites only the masked weight `main_v0` (to what its write-backs fold to); the product region rewrites only
  the result `main_v1`.  Each region takes its arrays out of the core's unscoped buffers, runs its pipeline, and puts the
  arrays back at their final contents; the scoped buffers and the generator register pass through the pipelines'
  invariants.  At the end every unscoped buffer is read against the final memory: the arguments hold their launch contents
  and the result holds what the product region's write-backs fold to.
-/
import proofs.«154603_j17849884082830_2_alg».proof.Proof.Kernel.MaskBody
import proofs.«154603_j17849884082830_2_alg».proof.Proof.Kernel.AccBody
import Idealize.ShloMosaic.Lib.Pipeline.RegionsLoop
import Idealize.ShloMosaic.Lib.Pipeline.FrameSuffix

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the regions' boundaries -/

/-- Core `c`'s buffers at launch. -/
abbrev W0 : Dev nD → Valuation τ sig (Elt F) := fun c b => m ((c : Dev nD), b)
/-- The same read at the TensorCore's references: what the masking region is entered from. -/
abbrev V0 : (c : Dev nD) → (b : Ref sig .tc) → Buf (Elt F) ((c : Thread nD τ).loc b) := fun c b => W0 m c b
/-- After the masking region: its arrays at what the pipeline leaves, every other buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- What the product region is entered from. -/
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the product region. -/
def W2 (c : Dev nD) : Valuation τ sig (Elt F) :=
  Pipeline.withArrays spec1 c (W1 m c) fun w => (dat1 (V1 m) c).arrAt w cfg1.N
theorem W2_arr (c : Dev nD) (w : Fin cfg1.W) :
    W2 m c (Proc.devRef .tc (Pipeline.arrRef spec1 w)) = (dat1 (V1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev V2 : (c : Dev nD) → (b : Ref sig .tc) → Buf (Elt F) ((c : Thread nD τ).loc b) := fun c b => W2 m c b
theorem hF1 (c : Dev nD) (w : Fin cfg1.W) : (dat1 (V1 m) c).arrAt w cfg1.N = V2 m c (Pipeline.arrRef spec1 w) :=
  (W2_arr m c w).symm
theorem hrest1 (c : Dev nD) : ∀ b, b ∉ Finset.univ.image (Pipeline.arrRef spec1) → V2 m c b = V1 m c b :=
  fun b hb => W2_of_ne m c b fun w e => hb (Finset.mem_image.mpr ⟨w, Finset.mem_univ _, e⟩)

/-! ### The arguments end as launched, the result at the product's fold -/

/-- `x` is an input of the product region and no array of the masking region. -/
theorem W2_main_arg0 (c : Dev nD) : W2 m c (Proc.devRef .tc main_arg0) = m ((c : Thread nD τ).loc main_arg0) :=
  calc W2 m c (Proc.devRef .tc main_arg0)
    _ = W1 m c (Proc.devRef .tc main_arg0) := (W2_arr m c 0).trans (((dat1 (V1 m) c).arrAt_in 0 rfl _).trans (A_eq1 (V1 m) c 0))
    _ = W0 m c (Proc.devRef .tc main_arg0) := W1_of_ne m c main_arg0 (by decide)
    _ = m ((c : Thread nD τ).loc main_arg0) := rfl
/-- `weight` is an input of the masking region and no array of the product region. -/
theorem W2_main_arg1 (c : Dev nD) : W2 m c (Proc.devRef .tc main_arg1) = m ((c : Thread nD τ).loc main_arg1) :=
  calc W2 m c (Proc.devRef .tc main_arg1)
    _ = W1 m c (Proc.devRef .tc main_arg1) := W2_of_ne m c main_arg1 (by decide)
    _ = W0 m c (Proc.devRef .tc main_arg1) := (W1_arr m c 0).trans (((dat0 (V0 m) c).arrAt_in 0 rfl _).trans (A_eq0 (V0 m) c 0))
    _ = m ((c : Thread nD τ).loc main_arg1) := rfl
/-- and so is `mask`. -/
theorem W2_main_arg2 (c : Dev nD) : W2 m c (Proc.devRef .tc main_arg2) = m ((c : Thread nD τ).loc main_arg2) :=
  calc W2 m c (Proc.devRef .tc main_arg2)
    _ = W1 m c (Proc.devRef .tc main_arg2) := W2_of_ne m c main_arg2 (by decide)
    _ = W0 m c (Proc.devRef .tc main_arg2) := (W1_arr m c 1).trans (((dat0 (V0 m) c).arrAt_in 1 rfl _).trans (A_eq0 (V0 m) c 1))
    _ = m ((c : Thread nD τ).loc main_arg2) := rfl
/-- The result is the product region's output array. -/
theorem W2_main_v1 (c : Dev nD) : W2 m c (Proc.devRef .tc main_v1) = (dat1 (V1 m) c).arrAt 2 cfg1.N := W2_arr m c 2
/-- The masked weight the product region reads is the masking region's output array. -/
theorem V1_main_v0 (c : Dev nD) : V1 m c main_v0 = (dat0 (V0 m) c).arrAt 2 cfg0.N := W1_arr m c 2
/-- The product region reads `x` as launched. -/
theorem V1_main_arg0 (c : Dev nD) : V1 m c main_arg0 = m ((c : Thread nD τ).loc main_arg0) := W1_of_ne m c main_arg0 (by decide)

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c
abbrev 𝒱₀ : Variants := Variants.none
abbrev L : GSem nD τ sig → Finset Unit := fun _ => ∅
abbrev lv : GSem nD τ sig → Unit → ℕ := fun _ _ => 0
/-- What rides beside the buffers through both regions: the generator register at some state, and the core owing nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m c) ∗ ∃ r, prngReg c r)

/-! ## The regions as segments -/

set_option backward.isDefEq.respectTransparency.types false in
/-- THE MASKING REGION: entered from every unscoped buffer at launch contents, left at `W1`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE PRODUCT REGION: entered from every unscoped buffer at `W1`, left at `W2`.  The launch hands the pipeline the
    class's invariant, which is the accumulator's invariant before the first point (`hin1`); after the last point the
    accumulator's named contents are forgotten (`hout1`). -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (V1 m) c)
    unfold Pipeline.ΦA
    iintro ⟨Hp, -, Hr⟩
    isplitl [Hr]; · iexact Hr
    iexact Hp
  hout c := by
    rw [Pipeline.ownSems0_none]
    refine (hout1 (V1 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V1 m c) (V2 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and its run -/

abbrev segs : List (Pipeline.Seg (pcfgs (F := F)) adm (pdats m) () defs₀ 𝒱₀ L lv) :=
  [ .region (reg0 m), .region (reg1 m) ]
theorem main_run (c : Dev nD) : main (F := F) c = Pipeline.Seg.run (segs m) := (main_chain c).trans (by chain_rfl)

set_option backward.isDefEq.respectTransparency.types false in
/-- THE RUN, at any float instance: from any memory with zero counters, every weakly fair execution of the program
    terminates, nothing faulting, and in every final state the result array holds what the product region's write-backs
    fold to and each argument array holds its launch contents. -/
theorem run_main : θ_run defs (onTc (τ := τ) (main (F := F))) ⟨m, fun _ => 0, ρ⟩ (fun r => ∀ c : Dev nD,
      r.2.mem ((c.tc : Thread nD τ).loc main_v1) = (dat1 (V1 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h c =>
      ⟨(h c _ (mem_uc main_v1 (by decide))).trans (W2_main_v1 m c),
       (h c _ (mem_uc main_arg0 (by decide))).trans (W2_main_arg0 m c),
       (h c _ (mem_uc main_arg1 (by decide))).trans (W2_main_arg1 m c),
       (h c _ (mem_uc main_arg2 (by decide))).trans (W2_main_arg2 m c)⟩)

/-- The frame claim's post from the run's. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_main m ρ)

end Cert.Kernel.Hand
end
-- ==== Proof.KernelIdeal.MaskData.lean ====
/-
  The masking kernel  mw = weight ⊙ mask  (both 4096 × 4096, the product rounded to the narrower float format) on a grid of
  16 row blocks of 256 rows: what the proof says each block's output buffer holds.  Point t works on rows
  256·t … 256·t + 255; its body loads the two input blocks whole and stores their entrywise product whole.
-/
import proofs.«154603_j17849884082830_2_alg».proof.Proof.Gen.KernelIdeal.Launch
import proofs.«154603_j17849884082830_2_alg».proof.Proof.Gen.KernelIdeal.Skeleton
import proofs.«154603_j17849884082830_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
-- the TensorCore's buffer contents when the region is entered
variable (V : (c : Dev nD) → (b : Ref sig .tc) → Buf (Elt F) ((c : Thread nD τ).loc b))

/-- Window `w`'s block at point `t` of the masking grid, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The proof data of the masking pipeline on core `c`: the arrays as the region finds them; after the body at point
    `t` each input's buffer at its block and the output's at the entrywise product of the two blocks (the skeleton's
    `k0_pay1`); the class's invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay1 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay1 (iblk0 V c 0 t) (iblk0 V c 1 t) := by dsimp only [dat0]

end

end Cert.KernelIdeal.Hand
end
-- ==== Proof.KernelIdeal.MaskBody.lean ====
/-
  The masking kernel's body at one point of its grid: both input blocks loaded whole, multiplied entrywise, rounded to
  the narrower float format and stored whole into the output block. Stated for any float instance.
-/
import proofs.«154603_j17849884082830_2_alg».proof.Proof.KernelIdeal.MaskData
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The two-coordinate offset `![0, 0]` is the zero offset. -/
theorem hz2 : (![0, 0] : Fin 2 → Nat) = fun _ => 0 := by
  funext a; fin_cases a <;> rfl

section
-- the TensorCore's buffer contents when the region is entered
variable (V : (c : Dev nD) → (b : Ref sig .tc) → Buf (Elt F) ((c : Thread nD τ).loc b))

/-- The weight's staging buffer holds the weight's block at every point, fetched there or not: the window is an
    input, never idle and uncut, and the body leaves the block in place. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- The mask's staging buffer holds the mask's block at every point, likewise. -/
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

end

set_option maxHeartbeats 1000000 in
/-- The body on whole staging memrefs: the two inputs' at read contents `x0`, `x1`, the output's at anything. It
    runs to the continuation holding the inputs' as they were and the output's at the rounded entrywise product
    `k0_pay1 x0 x1`: the one store is through the whole-block rectangle, so what it leaves reads as its payload,
    and each load through that rectangle reads its buffer's contents. -/
theorem sound_kernel0 (c : Dev nD) (E : Set ℕ) (i : grid0.Coords)
    (arg1 : Memref sig .tc .vmem S256x4096 .f32) (harg1 : arg1.IsWhole)
    (arg2 : Memref sig .tc .vmem S256x4096 .f32) (harg2 : arg2.IsWhole)
    (arg3 : Memref sig .tc .vmem S256x4096 .bf16) (harg3 : arg3.IsWhole)
    (x0 x1 : Vec F S256x4096 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (k0_pay1 x0 x1)) -∗ K ⟨⟩))
      ⊢ wp frame (wpE (defs₀ (F := F)) Variants.none c none) E (cc0__mask_kernel i arg1 harg1 arg2 harg2 arg3 harg3) K := by
  simp only [cc0__mask_kernel_eq_skeleton]; unfold cc0__mask_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_singleton_self _, View.mem_set_unit_zero hz2 inb_S256x4096_S256x4096_0_0 y⟩),
    View.canon_unit_zero hz2]
  simp only [View.readAt_eq_ld, View.ld_unit_zero (S := S256x4096) hz2]

section
variable (V : (c : Dev nD) → (b : Ref sig .tc) → Buf (Elt F) ((c : Thread nD τ).loc b))

/-- What the body is called with at point `t`: the invariant, what the core owes, and the three windows' current
    staging buffers one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The masking pipeline's body obligation, at every point. -/
theorem body_obligation0 (c : Dev nD) : BodyObligation (dat0 (F := F) V c) (defs₀ (F := F)) Variants.none () Set.univ := fun t => by
  rw [bigSep_W0, bigSep_W0]
  exact sound_body0 V c t

end

end Cert.KernelIdeal.Hand
end
-- ==== Proof.KernelIdeal.AccData.lean ====
/-
  The tiled product  out = x · mwᵀ  (x of 8192 × 4096, mw of 4096 × 4096) on the grid 8 × 2 × 8: what the proof says
  the accumulator holds.

  Point t = (bi · 2 + bj) · 8 + kb of the grid works on the output tile (bi, bj) of 1024 × 2048 entries and on K-block kb
  (512 columns of x and of mw).  The body keeps one 1024 × 2048 accumulator across the points: at kb = 0 it is set to
  zero, at every point the product of the point's x block with the transpose of its mw block is added to it, and at
  kb = 7 it is copied into the output tile.  `accAt n` is the accumulator after point n, by recursion on the point: the
  body's one step from zero when n is the first K-block of a tile, from `accAt (n - 1)` otherwise.
-/
import proofs.«154603_j17849884082830_2_alg».proof.Proof.Gen.KernelIdeal.Launch
import proofs.«154603_j17849884082830_2_alg».proof.Proof.Gen.KernelIdeal.Skeleton
import proofs.«154603_j17849884082830_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
-- the TensorCore's buffer contents when the region is entered
variable (V : (c : Dev nD) → (b : Ref sig .tc) → Buf (Elt F) ((c : Thread nD τ).loc b))

/-- Window `w`'s block at point `t` of the product's grid, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator after point `n`: one step of the body (`a ↦ a + x_block · mw_blockᵀ`, the skeleton's `k1_pay2`) from the
    zero matrix (`k1_pay1`) at the first K-block of a tile, from what point `n - 1` left otherwise. -/
def accAt (c : Dev nD) : (n : ℕ) → n < cfg1.N → Vec F S1024x2048 .f32
  | 0, hn => k1_pay2 (iblk1 V c 0 ⟨0, hn⟩) (iblk1 V c 1 ⟨0, hn⟩) (k1_pay1 (F := F))
  | n + 1, hn => k1_pay2 (iblk1 V c 0 ⟨n + 1, hn⟩) (iblk1 V c 1 ⟨n + 1, hn⟩)
      (if (n + 1) % 8 = 0 then k1_pay1 (F := F) else accAt c n (Nat.lt_of_succ_lt hn))

/-- At the first K-block of a tile the accumulator is one step from zero. -/
theorem accAt_first (c : Dev nD) (t : Fin cfg1.N) (h : t.val % 8 = 0) :
    accAt V c t.val t.isLt = k1_pay2 (iblk1 V c 0 t) (iblk1 V c 1 t) (k1_pay1 (F := F)) := by
  obtain ⟨n, hn⟩ := t
  cases n with
  | zero => rfl
  | succ n => exact congrArg (k1_pay2 _ _) (if_pos h)

/-- At a later K-block it is one step from what the point before left. -/
theorem accAt_later (c : Dev nD) (t : Fin cfg1.N) (h : ¬t.val % 8 = 0) :
    accAt V c t.val t.isLt = k1_pay2 (iblk1 V c 0 t) (iblk1 V c 1 t)
      (accAt V c (t.val - 1) (Nat.lt_of_le_of_lt (Nat.sub_le _ _) t.isLt)) := by
  obtain ⟨n, hn⟩ := t
  cases n with
  | zero => exact absurd (Nat.zero_mod _) h
  | succ n => exact congrArg (k1_pay2 _ _) (if_neg h)

/-- The accumulator as a whole scoped buffer of the kernel's own. -/
abbrev scM : Memref sig .tc .vmem S1024x2048 .f32 := Memref.whole cc1_scratch0

/-- The scoped buffers of the core that are neither the product's staging buffers nor its accumulator (the staging
    buffers of the masking kernel), each at some contents, beside the accumulator's part `P`. -/
def scopedWith (c : Dev nD) (P : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ P)

/-- The class's invariant (every scoped buffer no window stages at some contents, the generator register at some
    state) with the accumulator as a memref owned at some contents. -/
theorem PhiA1_eq (c : Dev nD) :
    (Pipeline.ΦA spec1 c : sProp 𝕄)
      = iprop(scopedWith c (iprop(∃ d, owns (c : Thread nD τ) scM fullShare d)) ∗ (∃ r, prngReg c r)) := by
  unfold Pipeline.ΦA scopedWith; rw [scopedRest1_eq]; simp only [scM, owns_whole]; try rfl

/-- The region's invariant before position `n`: before the first point the class's (the accumulator at anything);
    afterwards the accumulator at what the point before left (`accAt`), the other scoped buffers at anything and the
    generator register at some state. -/
def PhiS (c : Dev nD) : (n : ℕ) → n ≤ cfg1.N → sProp 𝕄
  | 0, _ => Pipeline.ΦA spec1 c
  | n + 1, hn => iprop(scopedWith c (owns (c : Thread nD τ) scM fullShare (accAt V c n hn)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(scopedWith c (owns (c : Thread nD τ) scM fullShare (accAt V c n hn)) ∗ (∃ r, prngReg c r)) := rfl

theorem PhiS_pos (c : Dev nD) (n : ℕ) (h : n ≤ cfg1.N) (hz : n ≠ 0) :
    PhiS V c n h = iprop(scopedWith c (owns (c : Thread nD τ) scM fullShare (accAt V c (n - 1) (by omega))) ∗ (∃ r, prngReg c r)) := by
  cases n with
  | zero => exact absurd rfl hz
  | succ n => rfl

/-- The proof data of the product's pipeline on core `c`: the arrays as the region finds them; after the body at point
    `t` each input's buffer at its block and the output's at the accumulator's contents (consulted only where the tile
    is written back, at the last K-block); the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => accAt V c t.val t.isLt
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = accAt V c t.val t.isLt := by dsimp only [dat1]

theorem PhiS_castSucc (c : Dev nD) (t : Fin cfg1.N) :
    (dat1 V c).Φ t.castSucc = PhiS V c t.val (Nat.le_of_lt t.isLt) := by
  dsimp only [dat1]; simp only [Fin.coe_castSucc]

end

end Cert.KernelIdeal.Hand
end
-- ==== Proof.KernelIdeal.AccBody.lean ====
/-
  The body of the tiled product at a grid point, case by case: at the first K-block of an output tile (kb = 0) the
  accumulator is zeroed and then takes one step; at a middle K-block it takes one step from what it held; at the last
  (kb = 7) it takes one step and is copied into the tile's output buffer.  With the grid's 8 K-blocks no point is both
  first and last.  In every case the two input blocks are read and left as they were.
-/
import proofs.«154603_j17849884082830_2_alg».proof.Proof.KernelIdeal.AccData
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's branch conditions, decided over the grid -/

/-- The condition of the body's first `scf.if` (the K-block index is 0), from the grid coordinates. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- The condition of its second (the K-block index is 7, the last). -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := fun _ => rfl
theorem liveAt1_1 : ∀ t : Fin cfg1.N, cfg1.idle 1 (grid1.coords t) = false := fun _ => rfl
/-- Away from the last K-block the output tile's buffer is not stored into, -/
theorem idleAt1_2 : ∀ t : Fin cfg1.N, ¬cond1_1 (grid1.coords t) → cfg1.idle 2 (grid1.coords t) = true := by decide +kernel
/-- nor written back; -/
theorem noFlush1_2 : ∀ t : Fin cfg1.N, ¬cond1_1 (grid1.coords t) → (cfg1.win 2).flush t = false := by decide +kernel
/-- at the last K-block it is stored into. -/
theorem liveAt1_2 : ∀ t : Fin cfg1.N, cond1_1 (grid1.coords t) → cfg1.idle 2 (grid1.coords t) = false := by decide +kernel

/-- The zero offsets of a whole-block access, however spelt. -/
theorem hzAcc : (![0, 0] : Fin 2 → Nat) = fun _ => 0 := by funext a; fin_cases a <;> rfl

set_option maxHeartbeats 1000000 in
/-- A MIDDLE K-block: the accumulator at `xs` takes one step; the inputs and the output tile's buffer are left. -/
theorem sound_kernel1_mid (c : Dev nD) (E : Set ℕ) (i : grid1.Coords) (arg3 : Memref sig .tc .vmem S1024x512 .f32) (harg3 : arg3.IsWhole) (arg4 : Memref sig .tc .vmem S2048x512 .bf16) (harg4 : arg4.IsWhole) (arg5 : Memref sig .tc .vmem S1024x2048 .f32) (harg5 : arg5.IsWhole) (arg6 : Memref sig .tc .vmem S1024x2048 .f32) (harg6 : arg6.IsWhole)
    (hc0 : ¬cond1_0 i) (hc1 : ¬cond1_1 i)
    (x0 : Vec F S1024x512 .f32) (x1 : Vec F S2048x512 .bf16) (y : Vec F S1024x2048 .f32) (xs : Vec F S1024x2048 .f32) (K : PUnit → sProp 𝕄) :
    iprop(owns (c : Thread nD τ) arg3 fullShare x0 ∗ owns (c : Thread nD τ) arg4 fullShare x1 ∗ owns (c : Thread nD τ) arg5 fullShare y ∗ owns (c : Thread nD τ) arg6 fullShare xs
        ∗ (iprop(owns (c : Thread nD τ) arg3 fullShare x0 ∗ owns (c : Thread nD τ) arg4 fullShare x1 ∗ owns (c : Thread nD τ) arg5 fullShare y ∗ owns (c : Thread nD τ) arg6 fullShare (k1_pay2 x0 x1 xs)) -∗ K ⟨⟩))
      ⊢ wp frame (wpE (defs₀ (F := F)) Variants.none c none) E (cc1__matmul_kernel i arg3 harg3 arg4 harg4 arg5 harg5 arg6 harg6) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; exact hf2
    iexact H2
  iexists _; isplitr
  swap; · iexact HS
  ipureintro
  rw [View.read_writes_eq_canon _ _ _ (fun y => ⟨_, List.mem_singleton_self _, View.mem_set_unit_zero hzAcc Facts₀.inb_S1024x2048_S1024x2048_0_0 y⟩), View.canon_unit_zero hzAcc]
  simp only [View.readAt_eq_ld, View.ld_unit_zero (S := S1024x512) hzAcc, View.ld_unit_zero (S := S2048x512) hzAcc, View.ld_unit_zero (S := S1024x2048) hzAcc]

set_option maxHeartbeats 1000000 in
/-- The FIRST K-block of a tile: the accumulator, at anything, is zeroed and takes one step. -/
theorem sound_kernel1_first (c : Dev nD) (E : Set ℕ) (i : grid1.Coords) (arg3 : Memref sig .tc .vmem S1024x512 .f32) (harg3 : arg3.IsWhole) (arg4 : Memref sig .tc .vmem S2048x512 .bf16) (harg4 : arg4.IsWhole) (arg5 : Memref sig .tc .vmem S1024x2048 .f32) (harg5 : arg5.IsWhole) (arg6 : Memref sig .tc .vmem S1024x2048 .f32) (harg6 : arg6.IsWhole)
    (hc0 : cond1_0 i) (hc1 : ¬cond1_1 i)
    (x0 : Vec F S1024x512 .f32) (x1 : Vec F S2048x512 .bf16) (y : Vec F S1024x2048 .f32) (K : PUnit → sProp 𝕄) :
    iprop(owns (c : Thread nD τ) arg3 fullShare x0 ∗ owns (c : Thread nD τ) arg4 fullShare x1 ∗ owns (c : Thread nD τ) arg5 fullShare y ∗ (∃ d, owns (c : Thread nD τ) arg6 fullShare d)
        ∗ (iprop(owns (c : Thread nD τ) arg3 fullShare x0 ∗ owns (c : Thread nD τ) arg4 fullShare x1 ∗ owns (c : Thread nD τ) arg5 fullShare y ∗ owns (c : Thread nD τ) arg6 fullShare (k1_pay2 x0 x1 (k1_pay1 (F := F)))) -∗ K ⟨⟩))
      ⊢ wp frame (wpE (defs₀ (F := F)) Variants.none c none) E (cc1__matmul_kernel i arg3 harg3 arg4 harg4 arg5 harg5 arg6 harg6) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%ds, %fs, -, HS⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; exact hf2
    iexact H2
  iexists _; isplitr
  swap; · iexact HS
  ipureintro
  rw [View.read_writes_eq_canon _ _ _ (fun y => ⟨_, List.mem_cons.mpr (Or.inl rfl), View.mem_set_unit_zero hzAcc Facts₀.inb_S1024x2048_S1024x2048_0_0 y⟩), View.canon_cons_unit_zero hzAcc]
  sl_unfold_run_names
  rw [View.readCov_unit_zero _ hzAcc]
  simp only [View.readAt_eq_ld, View.ld_unit_zero (S := S1024x512) hzAcc, View.ld_unit_zero (S := S2048x512) hzAcc, View.ld_unit_zero (S := S1024x2048) hzAcc]

set_option maxHeartbeats 1000000 in
/-- The LAST K-block of a tile: the accumulator takes one step and is copied into the tile's output buffer. -/
theorem sound_kernel1_last (c : Dev nD) (E : Set ℕ) (i : grid1.Coords) (arg3 : Memref sig .tc .vmem S1024x512 .f32) (harg3 : arg3.IsWhole) (arg4 : Memref sig .tc .vmem S2048x512 .bf16) (harg4 : arg4.IsWhole) (arg5 : Memref sig .tc .vmem S1024x2048 .f32) (harg5 : arg5.IsWhole) (arg6 : Memref sig .tc .vmem S1024x2048 .f32) (harg6 : arg6.IsWhole)
    (hc0 : ¬cond1_0 i) (hc1 : cond1_1 i)
    (x0 : Vec F S1024x512 .f32) (x1 : Vec F S2048x512 .bf16) (xs : Vec F S1024x2048 .f32) (K : PUnit → sProp 𝕄) :
    iprop(owns (c : Thread nD τ) arg3 fullShare x0 ∗ owns (c : Thread nD τ) arg4 fullShare x1 ∗ (∃ d, owns (c : Thread nD τ) arg5 fullShare d) ∗ owns (c : Thread nD τ) arg6 fullShare xs
        ∗ (iprop(owns (c : Thread nD τ) arg3 fullShare x0 ∗ owns (c : Thread nD τ) arg4 fullShare x1 ∗ owns (c : Thread nD τ) arg5 fullShare (k1_pay2 x0 x1 xs) ∗ owns (c : Thread nD τ) arg6 fullShare (k1_pay2 x0 x1 xs)) -∗ K ⟨⟩))
      ⊢ wp frame (wpE (defs₀ (F := F)) Variants.none c none) E (cc1__matmul_kernel i arg3 harg3 arg4 harg4 arg5 harg5 arg6 harg6) K := by
  simp only [cc1__matmul_kernel_eq_skeleton]; unfold cc1__matmul_kernel_skel
  unfold owns
  iintro ⟨⟨%f0, %hf0, H0⟩, ⟨%f1, %hf1, H1⟩, ⟨%d2, %f2, -, H2⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    rw [View.read_writes_eq_canon _ _ _ (fun y => ⟨_, List.mem_singleton_self _, View.mem_set_unit_zero hzAcc Facts₀.inb_S1024x2048_S1024x2048_0_0 y⟩), View.canon_unit_zero hzAcc]
    sl_unfold_run_names
    rw [View.readCov_unit_zero _ hzAcc]
    simp only [View.readAt_eq_ld, View.ld_unit_zero (S := S1024x512) hzAcc, View.ld_unit_zero (S := S2048x512) hzAcc, View.ld_unit_zero (S := S1024x2048) hzAcc]
  iexists _; isplitr
  swap; · iexact HS
  ipureintro
  sl_unfold_run_names
  rw [View.read_writes_eq_canon _ _ _ (fun y => ⟨_, List.mem_singleton_self _, View.mem_set_unit_zero hzAcc Facts₀.inb_S1024x2048_S1024x2048_0_0 y⟩), View.canon_unit_zero hzAcc]
  simp only [View.readAt_eq_ld, View.ld_unit_zero (S := S1024x512) hzAcc, View.ld_unit_zero (S := S2048x512) hzAcc, View.ld_unit_zero (S := S1024x2048) hzAcc]

section
variable (V : (c : Dev nD) → (b : Ref sig .tc) → Buf (Elt F) ((c : Thread nD τ).loc b))

/-! ## The inputs' staging buffers hold their blocks -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4000000 in
/-- The body at any point: which of the three cases the point is in is read off its position in the tile's run of 8
    K-blocks; the invariant hands the body the accumulator at what the point before left (at anything before the very
    first point) and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  have hN : t.val < 128 := lt_of_lt_of_eq t.isLt (show cfg1.N = 128 from N_1)
  by_cases h0 : t.val % 8 = 0
  · have h1 : ¬t.val % 8 = 7 := by omega
    rw [Dat.leavesExact_idle (dat1 V c) 2 t (idleAt1_2 t (fun h => h1 ((hcond1_1 t).mp h))) (noFlush1_2 t (fun h => h1 ((hcond1_1 t).mp h)))]
    rw [accAt_first V c t h0]
    by_cases hz : t.val = 0
    · rw [PhiS_castSucc V c t, PhiS_zero V c _ _ hz, PhiA1_eq]; unfold scopedWith
      iintro ⟨⟨⟨A0, A1, A2, A3, A4, A5, HS⟩, Hg⟩, Ho, ⟨%d0, H0⟩, ⟨%d1, H1⟩, ⟨%d2, H2⟩⟩
      iapply (sound_kernel1_first c Set.univ (grid1.coords t) _ _ _ _ _ _ _ _ ((hcond1_0 t).mpr h0) (fun h => h1 ((hcond1_1 t).mp h)) (iblk1 V c 0 t) (iblk1 V c 1 t) ((dat1 V c).before 2 t d2) _)
      isplitl [H0]; · iexact H0
      isplitl [H1]; · iexact H1
      isplitl [H2]; · iexact H2
      isplitl [HS]; · iexact HS
      iintro ⟨H0, H1, H2, HS⟩
      isplitl [A0 A1 A2 A3 A4 A5 HS Hg]
      · isplitl [A0 A1 A2 A3 A4 A5 HS]
        · isplitl [A0]; · iexact A0
          isplitl [A1]; · iexact A1
          isplitl [A2]; · iexact A2
          isplitl [A3]; · iexact A3
          isplitl [A4]; · iexact A4
          isplitl [A5]; · iexact A5
          iexact HS
        iexact Hg
      isplitl [Ho]; · iexact Ho
      isplitl [H0]; · iexact H0
      isplitl [H1]; · iexact H1
      iexists _; iexact H2
    · rw [PhiS_castSucc V c t, PhiS_pos V c _ _ hz]; unfold scopedWith
      iintro ⟨⟨⟨A0, A1, A2, A3, A4, A5, HS⟩, Hg⟩, Ho, ⟨%d0, H0⟩, ⟨%d1, H1⟩, ⟨%d2, H2⟩⟩
      iapply (sound_kernel1_first c Set.univ (grid1.coords t) _ _ _ _ _ _ _ _ ((hcond1_0 t).mpr h0) (fun h => h1 ((hcond1_1 t).mp h)) (iblk1 V c 0 t) (iblk1 V c 1 t) ((dat1 V c).before 2 t d2) _)
      isplitl [H0]; · iexact H0
      isplitl [H1]; · iexact H1
      isplitl [H2]; · iexact H2
      isplitl [HS]; · iexists _; iexact HS
      iintro ⟨H0, H1, H2, HS⟩
      isplitl [A0 A1 A2 A3 A4 A5 HS Hg]
      · isplitl [A0 A1 A2 A3 A4 A5 HS]
        · isplitl [A0]; · iexact A0
          isplitl [A1]; · iexact A1
          isplitl [A2]; · iexact A2
          isplitl [A3]; · iexact A3
          isplitl [A4]; · iexact A4
          isplitl [A5]; · iexact A5
          iexact HS
        iexact Hg
      isplitl [Ho]; · iexact Ho
      isplitl [H0]; · iexact H0
      isplitl [H1]; · iexact H1
      iexists _; iexact H2
  · have hz : t.val ≠ 0 := fun h => h0 (by rw [h])
    rw [accAt_later V c t h0]
    rw [PhiS_castSucc V c t, PhiS_pos V c _ _ hz]; unfold scopedWith
    by_cases h1 : t.val % 8 = 7
    · rw [show (dat1 V c).leavesExact 2 t = owns (c : Thread nD τ) (st1_2 t) fullShare ((dat1 V c).after 2 t) from by
        unfold Dat.leavesExact; rw [liveAt1_2 t ((hcond1_1 t).mpr h1)], after1_2, accAt_later V c t h0]
      iintro ⟨⟨⟨A0, A1, A2, A3, A4, A5, HS⟩, Hg⟩, Ho, ⟨%d0, H0⟩, ⟨%d1, H1⟩, ⟨%d2, H2⟩⟩
      iapply (sound_kernel1_last c Set.univ (grid1.coords t) _ _ _ _ _ _ _ _ (fun h => h0 ((hcond1_0 t).mp h)) ((hcond1_1 t).mpr h1) (iblk1 V c 0 t) (iblk1 V c 1 t) _ _)
      isplitl [H0]; · iexact H0
      isplitl [H1]; · iexact H1
      isplitl [H2]; · iexists _; iexact H2
      isplitl [HS]; · iexact HS
      iintro ⟨H0, H1, H2, HS⟩
      isplitl [A0 A1 A2 A3 A4 A5 HS Hg]
      · isplitl [A0 A1 A2 A3 A4 A5 HS]
        · isplitl [A0]; · iexact A0
          isplitl [A1]; · iexact A1
          isplitl [A2]; · iexact A2
          isplitl [A3]; · iexact A3
          isplitl [A4]; · iexact A4
          isplitl [A5]; · iexact A5
          iexact HS
        iexact Hg
      isplitl [Ho]; · iexact Ho
      isplitl [H0]; · iexact H0
      isplitl [H1]; · iexact H1
      iexact H2
    · rw [Dat.leavesExact_idle (dat1 V c) 2 t (idleAt1_2 t (fun h => h1 ((hcond1_1 t).mp h))) (noFlush1_2 t (fun h => h1 ((hcond1_1 t).mp h)))]
      iintro ⟨⟨⟨A0, A1, A2, A3, A4, A5, HS⟩, Hg⟩, Ho, ⟨%d0, H0⟩, ⟨%d1, H1⟩, ⟨%d2, H2⟩⟩
      iapply (sound_kernel1_mid c Set.univ (grid1.coords t) _ _ _ _ _ _ _ _ (fun h => h0 ((hcond1_0 t).mp h)) (fun h => h1 ((hcond1_1 t).mp h)) (iblk1 V c 0 t) (iblk1 V c 1 t) ((dat1 V c).before 2 t d2) _ _)
      isplitl [H0]; · iexact H0
      isplitl [H1]; · iexact H1
      isplitl [H2]; · iexact H2
      isplitl [HS]; · iexact HS
      iintro ⟨H0, H1, H2, HS⟩
      isplitl [A0 A1 A2 A3 A4 A5 HS Hg]
      · isplitl [A0 A1 A2 A3 A4 A5 HS]
        · isplitl [A0]; · iexact A0
          isplitl [A1]; · iexact A1
          isplitl [A2]; · iexact A2
          isplitl [A3]; · iexact A3
          isplitl [A4]; · iexact A4
          isplitl [A5]; · iexact A5
          iexact HS
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class's back: the accumulator's named contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 128 := N_1; omega), PhiA1_eq]
  unfold scopedWith
  iintro ⟨⟨A0, A1, A2, A3, A4, A5, HS⟩, Hg⟩
  isplitl [A0 A1 A2 A3 A4 A5 HS]
  · isplitl [A0]; · iexact A0
    isplitl [A1]; · iexact A1
    isplitl [A2]; · iexact A2
    isplitl [A3]; · iexact A3
    isplitl [A4]; · iexact A4
    isplitl [A5]; · iexact A5
    iexists _; iexact HS
  iexact Hg

end

end Cert.KernelIdeal.Hand
end
-- ==== Proof.KernelIdeal.Run.lean ====
/-
  The whole program as two kernel regions one after the other, and what its run leaves.

  The buffers' contents are followed through the program: at launch every buffer holds its launch contents; the masking
  region rewrites only the masked weight `main_v0` (to what its write-backs fold to); the product region rewrites only
  the result `main_v1`.  Each region takes its arrays out of the core's unscoped buffers, runs its pipeline, and puts the
  arrays back at their final contents; the scoped buffers and the generator register pass through the pipelines'
  invariants.  At the end every unscoped buffer is read against the final memory: the arguments hold their launch contents
  and the result holds what the product region's write-backs fold to.
-/
import proofs.«154603_j17849884082830_2_alg».proof.Proof.KernelIdeal.MaskBody
import proofs.«154603_j17849884082830_2_alg».proof.Proof.KernelIdeal.AccBody
import Idealize.ShloMosaic.Lib.Pipeline.RegionsLoop
import Idealize.ShloMosaic.Lib.Pipeline.FrameSuffix

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the regions' boundaries -/

/-- Core `c`'s buffers at launch. -/
abbrev W0 : Dev nD → Valuation τ sig (Elt F) := fun c b => m ((c : Dev nD), b)
/-- The same read at the TensorCore's references: what the masking region is entered from. -/
abbrev V0 : (c : Dev nD) → (b : Ref sig .tc) → Buf (Elt F) ((c : Thread nD τ).loc b) := fun c b => W0 m c b
/-- After the masking region: its arrays at what the pipeline leaves, every other buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- What the product region is entered from. -/
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the product region. -/
def W2 (c : Dev nD) : Valuation τ sig (Elt F) :=
  Pipeline.withArrays spec1 c (W1 m c) fun w => (dat1 (V1 m) c).arrAt w cfg1.N
theorem W2_arr (c : Dev nD) (w : Fin cfg1.W) :
    W2 m c (Proc.devRef .tc (Pipeline.arrRef spec1 w)) = (dat1 (V1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev V2 : (c : Dev nD) → (b : Ref sig .tc) → Buf (Elt F) ((c : Thread nD τ).loc b) := fun c b => W2 m c b
theorem hF1 (c : Dev nD) (w : Fin cfg1.W) : (dat1 (V1 m) c).arrAt w cfg1.N = V2 m c (Pipeline.arrRef spec1 w) :=
  (W2_arr m c w).symm
theorem hrest1 (c : Dev nD) : ∀ b, b ∉ Finset.univ.image (Pipeline.arrRef spec1) → V2 m c b = V1 m c b :=
  fun b hb => W2_of_ne m c b fun w e => hb (Finset.mem_image.mpr ⟨w, Finset.mem_univ _, e⟩)

/-! ### The arguments end as launched, the result at the product's fold -/

/-- `x` is an input of the product region and no array of the masking region. -/
theorem W2_main_arg0 (c : Dev nD) : W2 m c (Proc.devRef .tc main_arg0) = m ((c : Thread nD τ).loc main_arg0) :=
  calc W2 m c (Proc.devRef .tc main_arg0)
    _ = W1 m c (Proc.devRef .tc main_arg0) := (W2_arr m c 0).trans (((dat1 (V1 m) c).arrAt_in 0 rfl _).trans (A_eq1 (V1 m) c 0))
    _ = W0 m c (Proc.devRef .tc main_arg0) := W1_of_ne m c main_arg0 (by decide)
    _ = m ((c : Thread nD τ).loc main_arg0) := rfl
/-- `weight` is an input of the masking region and no array of the product region. -/
theorem W2_main_arg1 (c : Dev nD) : W2 m c (Proc.devRef .tc main_arg1) = m ((c : Thread nD τ).loc main_arg1) :=
  calc W2 m c (Proc.devRef .tc main_arg1)
    _ = W1 m c (Proc.devRef .tc main_arg1) := W2_of_ne m c main_arg1 (by decide)
    _ = W0 m c (Proc.devRef .tc main_arg1) := (W1_arr m c 0).trans (((dat0 (V0 m) c).arrAt_in 0 rfl _).trans (A_eq0 (V0 m) c 0))
    _ = m ((c : Thread nD τ).loc main_arg1) := rfl
/-- and so is `mask`. -/
theorem W2_main_arg2 (c : Dev nD) : W2 m c (Proc.devRef .tc main_arg2) = m ((c : Thread nD τ).loc main_arg2) :=
  calc W2 m c (Proc.devRef .tc main_arg2)
    _ = W1 m c (Proc.devRef .tc main_arg2) := W2_of_ne m c main_arg2 (by decide)
    _ = W0 m c (Proc.devRef .tc main_arg2) := (W1_arr m c 1).trans (((dat0 (V0 m) c).arrAt_in 1 rfl _).trans (A_eq0 (V0 m) c 1))
    _ = m ((c : Thread nD τ).loc main_arg2) := rfl
/-- The result is the product region's output array. -/
theorem W2_main_v1 (c : Dev nD) : W2 m c (Proc.devRef .tc main_v1) = (dat1 (V1 m) c).arrAt 2 cfg1.N := W2_arr m c 2
/-- The masked weight the product region reads is the masking region's output array. -/
theorem V1_main_v0 (c : Dev nD) : V1 m c main_v0 = (dat0 (V0 m) c).arrAt 2 cfg0.N := W1_arr m c 2
/-- The product region reads `x` as launched. -/
theorem V1_main_arg0 (c : Dev nD) : V1 m c main_arg0 = m ((c : Thread nD τ).loc main_arg0) := W1_of_ne m c main_arg0 (by decide)

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c
abbrev 𝒱₀ : Variants := Variants.none
abbrev L : GSem nD τ sig → Finset Unit := fun _ => ∅
abbrev lv : GSem nD τ sig → Unit → ℕ := fun _ _ => 0
/-- What rides beside the buffers through both regions: the generator register at some state, and the core owing nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m c) ∗ ∃ r, prngReg c r)

/-! ## The regions as segments -/

set_option backward.isDefEq.respectTransparency.types false in
/-- THE MASKING REGION: entered from every unscoped buffer at launch contents, left at `W1`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE PRODUCT REGION: entered from every unscoped buffer at `W1`, left at `W2`.  The launch hands the pipeline the
    class's invariant, which is the accumulator's invariant before the first point (`hin1`); after the last point the
    accumulator's named contents are forgotten (`hout1`). -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (V1 m) c)
    unfold Pipeline.ΦA
    iintro ⟨Hp, -, Hr⟩
    isplitl [Hr]; · iexact Hr
    iexact Hp
  hout c := by
    rw [Pipeline.ownSems0_none]
    refine (hout1 (V1 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V1 m c) (V2 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and its run -/

abbrev segs : List (Pipeline.Seg (pcfgs (F := F)) adm (pdats m) () defs₀ 𝒱₀ L lv) :=
  [ .region (reg0 m), .region (reg1 m) ]
theorem main_run (c : Dev nD) : main (F := F) c = Pipeline.Seg.run (segs m) := (main_chain c).trans (by chain_rfl)

set_option backward.isDefEq.respectTransparency.types false in
/-- THE RUN, at any float instance: from any memory with zero counters, every weakly fair execution of the program
    terminates, nothing faulting, and in every final state the result array holds what the product region's write-backs
    fold to and each argument array holds its launch contents. -/
theorem run_main : θ_run defs (onTc (τ := τ) (main (F := F))) ⟨m, fun _ => 0, ρ⟩ (fun r => ∀ c : Dev nD,
      r.2.mem ((c.tc : Thread nD τ).loc main_v1) = (dat1 (V1 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h c =>
      ⟨(h c _ (mem_uc main_v1 (by decide))).trans (W2_main_v1 m c),
       (h c _ (mem_uc main_arg0 (by decide))).trans (W2_main_arg0 m c),
       (h c _ (mem_uc main_arg1 (by decide))).trans (W2_main_arg1 m c),
       (h c _ (mem_uc main_arg2 (by decide))).trans (W2_main_arg2 m c)⟩)

/-- The frame claim's post from the run's. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_main m ρ)

end Cert.KernelIdeal.Hand
end
-- ==== Proof.LibBlockSum.lean ====
/-
  A sum over `a · b` consecutive rows, taken block by block.

  A kernel that walks an array of `a · b` rows in `a` blocks of `b` rows and accumulates one partial sum per block
  computes `Σ_p Σ_q f (p · b + q)`; a reference that reduces the whole axis at once computes `Σ_r f r`.
  In any commutative additive monoid (the extended reals included: their addition is commutative and associative
  at the infinities too) the two are equal, and so is the three-level form `a · b · c` rows walked as
  `a` groups of `b` blocks of `c` rows.
-/
import Mathlib.Algebra.BigOperators.Fin
import Mathlib.Logic.Equiv.Fin.Basic

namespace LibBlockSum

variable {M : Type} [AddCommMonoid M]

/-- Rows `0 … a·b − 1` summed at once are the `a` blocks of `b` rows summed one after the other. -/
theorem sum_blocks (a b : ℕ) (f : ℕ → M) :
    ∑ r : Fin (a * b), f r.val = ∑ p : Fin a, ∑ q : Fin b, f (p.val * b + q.val) := by
  rw [← Fintype.sum_prod_type' (f := fun (p : Fin a) (q : Fin b) => f (p.val * b + q.val))]
  refine (Fintype.sum_equiv finProdFinEquiv _ _ fun x => ?_).symm
  rw [finProdFinEquiv_apply_val, Nat.mul_comm b, Nat.add_comm]

/-- Three levels: `a` groups of `b` blocks of `c` rows. -/
theorem sum_blocks₃ (a b c : ℕ) (f : ℕ → M) :
    ∑ r : Fin (a * b * c), f r.val
      = ∑ p : Fin a, ∑ q : Fin b, ∑ s : Fin c, f ((p.val * b + q.val) * c + s.val) := by
  rw [sum_blocks (a * b) c f, sum_blocks a b fun k => ∑ s : Fin c, f (k * c + s.val)]

end LibBlockSum
-- ==== Proof.Spec.lean ====
/-
  The masked linear layer as ONE function of its arguments, on the extended reals.

  With x : [8192, 4096] and weight, mask : [4096, 4096], the layer is out = x · (weight ∘ mask)ᵀ, that is

      out(r, o) = Σ_{k < 4096} x(r, k) · (weight(o, k) · mask(o, k)).

  A program that walks the contraction axis in 8 blocks of 512 positions computes, for every (r, o), the sum over the 8
  blocks of the sums over the 512 positions of a block; and one that keeps a running total, adding to it at each block
  that block's partial sum (itself accumulated onto a zero), computes the left fold of those 8 partial sums. Addition of
  extended reals is commutative and associative (at the infinities too), so all three are the same number: no finiteness
  of the entries is needed.
-/
import Idealize.ShloMosaic.PureOps.Ideal
import Idealize.ShloMosaic.Lib.ValueIdx
import proofs.«154603_j17849884082830_2_alg».proof.Proof.LibBlockSum

noncomputable section

open scoped BigOperators
open Idealize.ShloMosaic Idealize.ShloMosaic.ValueIdx

namespace Cert.Expander

/-- The masked weight: entry (o, k) is weight(o, k) · mask(o, k). -/
def masked (w mk : (⟨2, ![4096, 4096]⟩ : Shape).Idx → EReal) : (⟨2, ![4096, 4096]⟩ : Shape).Idx → EReal :=
  fun j => w j * mk j

/-- The layer over a (masked) weight mw: out(r, o) = Σ_k x(r, k) · mw(o, k), the contraction over the LAST axis of both. -/
def expander (x : (⟨2, ![8192, 4096]⟩ : Shape).Idx → EReal) (mw : (⟨2, ![4096, 4096]⟩ : Shape).Idx → EReal) :
    (⟨2, ![8192, 4096]⟩ : Shape).Idx → EReal :=
  fun i => ∑ k : Fin 4096, x (ix2 ⟨(i 0).val, (i 0).isLt⟩ k) * mw (ix2 ⟨(i 1).val, (i 1).isLt⟩ k)

/-- At an index given by its coordinates the layer is the plain sum over k. -/
theorem expander_apply (x : (⟨2, ![8192, 4096]⟩ : Shape).Idx → EReal) (mw : (⟨2, ![4096, 4096]⟩ : Shape).Idx → EReal)
    (r : Fin 8192) (o : Fin 4096) :
    expander x mw (ix2 r o) = ∑ k : Fin 4096, x (ix2 r k) * mw (ix2 o k) := rfl

/-- The contraction taken block by block: 8 blocks of 512 consecutive positions. -/
theorem expander_blocks (x : (⟨2, ![8192, 4096]⟩ : Shape).Idx → EReal) (mw : (⟨2, ![4096, 4096]⟩ : Shape).Idx → EReal)
    (r : Fin 8192) (o : Fin 4096) :
    expander x mw (ix2 r o) = ∑ kb : Fin 8, ∑ d : Fin 512,
      x (ix2 r ⟨kb.val * 512 + d.val, by omega⟩) * mw (ix2 o ⟨kb.val * 512 + d.val, by omega⟩) := by
  rw [expander_apply]
  -- the summand as a function of the position's number, zero past the axis
  let f : ℕ → EReal := fun n => if h : n < 4096 then x (ix2 r ⟨n, h⟩) * mw (ix2 o ⟨n, h⟩) else 0
  have hl : ∑ k : Fin 4096, x (ix2 r k) * mw (ix2 o k) = ∑ k : Fin (8 * 512), f k.val :=
    Finset.sum_congr rfl fun k _ =>
      show x (ix2 r k) * mw (ix2 o k)
        = (if h : k.val < 4096 then x (ix2 r ⟨k.val, h⟩) * mw (ix2 o ⟨k.val, h⟩) else 0) by rw [dif_pos k.isLt]
  have hr : ∑ kb : Fin 8, ∑ d : Fin 512, f (kb.val * 512 + d.val) = ∑ kb : Fin 8, ∑ d : Fin 512,
      x (ix2 r ⟨kb.val * 512 + d.val, by omega⟩) * mw (ix2 o ⟨kb.val * 512 + d.val, by omega⟩) :=
    Finset.sum_congr rfl fun kb _ => Finset.sum_congr rfl fun d _ =>
      show (if h : kb.val * 512 + d.val < 4096 then x (ix2 r ⟨kb.val * 512 + d.val, h⟩) * mw (ix2 o ⟨kb.val * 512 + d.val, h⟩)
          else 0) = _ from dif_pos (by omega)
  exact hl.trans ((LibBlockSum.sum_blocks 8 512 f).trans hr)

/-- The partial sum of K-block number n (read modulo 8, so that it is a position of the axis for every n). -/
def blockSum (x : (⟨2, ![8192, 4096]⟩ : Shape).Idx → EReal) (mw : (⟨2, ![4096, 4096]⟩ : Shape).Idx → EReal)
    (r : Fin 8192) (o : Fin 4096) (n : ℕ) : EReal :=
  ∑ d : Fin 512, x (ix2 r ⟨(n % 8) * 512 + d.val, by omega⟩) * mw (ix2 o ⟨(n % 8) * 512 + d.val, by omega⟩)

/-- The running total after n K-blocks: it starts at zero, and each block adds, to what the total holds, that block's
    partial sum accumulated onto a zero. -/
def accUpTo (x : (⟨2, ![8192, 4096]⟩ : Shape).Idx → EReal) (mw : (⟨2, ![4096, 4096]⟩ : Shape).Idx → EReal)
    (r : Fin 8192) (o : Fin 4096) : ℕ → EReal
  | 0 => 0
  | n + 1 => accUpTo x mw r o n
      + (0 + ∑ d : Fin 512, x (ix2 r ⟨(n % 8) * 512 + d.val, by omega⟩) * mw (ix2 o ⟨(n % 8) * 512 + d.val, by omega⟩))

theorem accUpTo_zero (x : (⟨2, ![8192, 4096]⟩ : Shape).Idx → EReal) (mw : (⟨2, ![4096, 4096]⟩ : Shape).Idx → EReal)
    (r : Fin 8192) (o : Fin 4096) : accUpTo x mw r o 0 = 0 := rfl

theorem accUpTo_succ (x : (⟨2, ![8192, 4096]⟩ : Shape).Idx → EReal) (mw : (⟨2, ![4096, 4096]⟩ : Shape).Idx → EReal)
    (r : Fin 8192) (o : Fin 4096) (n : ℕ) :
    accUpTo x mw r o (n + 1) = accUpTo x mw r o n
      + (0 + ∑ d : Fin 512, x (ix2 r ⟨(n % 8) * 512 + d.val, by omega⟩) * mw (ix2 o ⟨(n % 8) * 512 + d.val, by omega⟩)) := rfl

/-- The running total after n blocks is the sum of the first n partial sums. -/
theorem accUpTo_eq_sum (x : (⟨2, ![8192, 4096]⟩ : Shape).Idx → EReal) (mw : (⟨2, ![4096, 4096]⟩ : Shape).Idx → EReal)
    (r : Fin 8192) (o : Fin 4096) (n : ℕ) :
    accUpTo x mw r o n = ∑ kb : Fin n, blockSum x mw r o kb.val := by
  induction n with
  | zero => rfl
  | succ n ih =>
    rw [accUpTo_succ, ih, zero_add]
    exact (Fin.sum_univ_castSucc fun kb : Fin (n + 1) => blockSum x mw r o kb.val).symm

/-- The layer is the running total after all 8 K-blocks. -/
theorem expander_fold (x : (⟨2, ![8192, 4096]⟩ : Shape).Idx → EReal) (mw : (⟨2, ![4096, 4096]⟩ : Shape).Idx → EReal)
    (r : Fin 8192) (o : Fin 4096) :
    expander x mw (ix2 r o) = accUpTo x mw r o 8 := by
  rw [expander_blocks, accUpTo_eq_sum]
  refine Finset.sum_congr rfl fun kb _ => ?_
  unfold blockSum
  refine Finset.sum_congr rfl fun d _ => ?_
  have e : (⟨kb.val * 512 + d.val, by omega⟩ : Fin 4096) = ⟨(kb.val % 8) * 512 + d.val, by omega⟩ :=
    Fin.ext (by show kb.val * 512 + d.val = (kb.val % 8) * 512 + d.val; omega)
  rw [e]

end Cert.Expander

end
-- ==== Proof.KernelIdeal.MaskValue.lean ====
/-
  What the masking region leaves in its result array, over the extended reals: the entrywise product of the weight and
  the mask (rounding to the narrower format is the identity there). Point t of the grid writes rows
  256·t … 256·t + 255 of the result from the same rows of the two inputs, and the sixteen points' row blocks tile the
  4096 × 4096 array.
-/
import proofs.«154603_j17849884082830_2_alg».proof.Proof.KernelIdeal.MaskData
import proofs.«154603_j17849884082830_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.MaskValue

open Cert.KernelIdeal Cert.KernelIdeal.Gen Cert.KernelIdeal.Hand
open Idealize.ShloMosaic Idealize.ShloMosaic.TcCoe Idealize.SL.Sem
open Idealize.ShloMosaic.Pipeline (Dat)

-- the TensorCore's buffer contents when the region is entered
variable (V : (c : Dev nD) → (b : Ref sig .tc) → Buf (Elt Ideal) ((c : Thread nD τ).loc b))

/-- The windows' block indices over the grid: both inputs move with the output, whose row-block index is the point
    and whose column-block index is zero. -/
theorem rowBlock_facts : ∀ t : Fin cfg0.N,
    win0_0.index t (0 : Fin 2) = win0_2.index t (0 : Fin 2)
    ∧ win0_0.index t (1 : Fin 2) = win0_2.index t (1 : Fin 2)
    ∧ win0_1.index t (0 : Fin 2) = win0_2.index t (0 : Fin 2)
    ∧ win0_1.index t (1 : Fin 2) = win0_2.index t (1 : Fin 2)
    ∧ win0_2.index t (0 : Fin 2) = t.val
    ∧ win0_2.index t (1 : Fin 2) = 0 :=
  (by decide +kernel : ∀ t : Fin grid0.N, _)

/-- What point `t` writes back is its row block of the masked weight, the entrywise product of the weight and the mask
    as the region finds them. -/
theorem flushed_eq (c : Dev nD) (t : Fin cfg0.N) :
    (dat0 (F := Ideal) V c).flushed 2 t = ((cfg0.win 2).blk t).view.read (Elt Ideal) (Cert.Expander.masked (V c main_arg1) (V c main_arg2)) := by
  show (cfg0.win 2).cut (grid0.coords t) ((dat0 V c).after 2 t) = _
  rw [after0_2]
  obtain ⟨e0, e1, e2, e3, e4, e5⟩ := rowBlock_facts t
  funext j
  have h0 : ((cfg0.win 0).blk t).view.emb j = ((cfg0.win 2).blk t).view.emb j := by
    funext a; apply Fin.ext
    match a with
    | ⟨0, _⟩ => show win0_0.index t (0 : Fin 2) * 256 + 1 * (j 0).val = win0_2.index t (0 : Fin 2) * 256 + 1 * (j 0).val; omega
    | ⟨1, _⟩ => show win0_0.index t (1 : Fin 2) * 4096 + 1 * (j 1).val = win0_2.index t (1 : Fin 2) * 4096 + 1 * (j 1).val; omega
  have h1 : ((cfg0.win 1).blk t).view.emb j = ((cfg0.win 2).blk t).view.emb j := by
    funext a; apply Fin.ext
    match a with
    | ⟨0, _⟩ => show win0_1.index t (0 : Fin 2) * 256 + 1 * (j 0).val = win0_2.index t (0 : Fin 2) * 256 + 1 * (j 0).val; omega
    | ⟨1, _⟩ => show win0_1.index t (1 : Fin 2) * 4096 + 1 * (j 1).val = win0_2.index t (1 : Fin 2) * 4096 + 1 * (j 1).val; omega
  -- over the extended reals the payload at `j` is the product of the two blocks' entries at `j`, each block's entry the
  -- array's at the block's index for `j`
  exact congrArg₂ (fun a b : EReal => a * b) (congrArg (V c main_arg1 : S4096x4096.Idx → EReal) h0)
    (congrArg (V c main_arg2 : S4096x4096.Idx → EReal) h1)

/-- An index of the result array is in point `t`'s block iff each coordinate is in the block's range on its axis. -/
theorem mem_rowBlock (t : Fin cfg0.N) (i : S4096x4096.Idx) :
    i ∈ ((cfg0.win 2).blk t).view.set ↔ ∀ a : Fin 2, win0_2.index t a * S256x4096.size a ≤ (i a).val ∧ (i a).val < win0_2.index t a * S256x4096.size a + S256x4096.size a := by
  show i ∈ ((View.whole main_v0).slice (win0_2.rect t)).set ↔ _
  rw [View.set_slice_whole, Rect.mem_set_unit]
  exact Iff.rfl

/-- Every index of the result array is in some point's block: row `r` is in the block of point `r / 256`. -/
theorem covered (i : S4096x4096.Idx) :
    ∃ t : Fin cfg0.N, (cfg0.win 2).flush t = true ∧ i ∈ ((cfg0.win 2).blk t).view.set := by
  have hi0 : (i 0).val < 4096 := (i 0).isLt
  have hi1 : (i 1).val < 4096 := (i 1).isLt
  have hN : cfg0.N = 16 := N_0
  obtain ⟨t, ht⟩ : ∃ t : Fin cfg0.N, t.val = (i 0).val / 256 := ⟨⟨(i 0).val / 256, by omega⟩, rfl⟩
  obtain ⟨e0, e1, e2, e3, e4, e5⟩ := rowBlock_facts t
  refine ⟨t, flush0_2 t, ?_⟩
  rw [mem_rowBlock]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 4096 ≤ (i 1).val ∧ (i 1).val < win0_2.index t (1 : Fin 2) * 4096 + 4096; omega

/-- The result array after the masking region: the masked weight. -/
theorem mask_final (c : Dev nD) :
    (dat0 (F := Ideal) V c).arrAt 2 cfg0.N = Cert.Expander.masked (V c main_arg1) (V c main_arg2) :=
  (dat0 V c).arrAt_eq_of_cover 2 (Cert.Expander.masked (V c main_arg1) (V c main_arg2)) (fun t _ => flushed_eq V c t) covered

end Cert.KernelIdeal.MaskValue
end
-- ==== Proof.LibFlashForms.lean ====
/-
  Forms an attention kernel's key-block step reads at an index, for any extents, on the extended reals: the product
  `A · Bᵀ` of an `[a, w]` by a `[b, w]` matrix (both contracted along their second axis) onto the zero accumulator is, at
  `(p, k)`, the sum over `d` of `A (p, d) · B (k, d)`; the vector unit's maximum over the columns of an `[a, b]` matrix is, at
  row `p`, the fold of `max` over that row from the accumulator's value; and a unit-stride slice of columns `o … o + w - 1`
  of an `[n, W]` matrix reads, at `(r, j)`, the matrix at `(r, o + j)`.
-/
import Idealize.ShloMosaic.Lib.Pipeline.Value
import Idealize.ShloMosaic.Lib.ValueIdx
import Idealize.ShloMosaic.Lib.ValueLayout
import Idealize.ShloMosaic.PureOps.Ideal.Laws

noncomputable section

namespace Cert.LibFlashForms

open Idealize.ShloMosaic Idealize.ShloMosaic.ValueIdx
open scoped BigOperators

variable {α : Type}

/-- The product of an `[a, w]` by the transpose of a `[b, w]` matrix onto the zero accumulator, read at `(p, k)`. -/
theorem matmul_nt_zero_apply {a b w : ℕ} {φ₁ φ₂ : FTy}
    (wf : DotDims.WF ⟨2, ![a, w]⟩ ⟨2, ![b, w]⟩ ⟨2, ![a, b]⟩ [1] [1] [0] [0] [] [])
    (prec : Option ContractPrecision) (A : FVec Ideal ⟨2, ![a, w]⟩ φ₁) (B : FVec Ideal ⟨2, ![b, w]⟩ φ₂)
    (p : Fin a) (k : Fin b) :
    matmul (⟨[1], [1], [0], [0], [], [], wf⟩ : DotDims ⟨2, ![a, w]⟩ ⟨2, ![b, w]⟩ ⟨2, ![a, b]⟩) prec A B
        (constant (F := Ideal) ⟨2, ![a, b]⟩ .f32 0x00000000#32) (ix2 p k)
      = ∑ d : Fin w, A (ix2 p d) * B (ix2 k d) := by
  show FloatOps.matmul _ prec A B _ (ix2 p k) = _
  rw [Ideal.matmul_constant_zero_apply,
    ← Equiv.sum_comp (contrEquiv1 (⟨[1], [1], [0], [0], [], [], wf⟩ : DotDims ⟨2, ![a, w]⟩ ⟨2, ![b, w]⟩ ⟨2, ![a, b]⟩) w rfl rfl).symm]
  refine Finset.sum_congr rfl fun d _ => ?_
  have c2 := contrEquiv1_symm_val
    (⟨[1], [1], [0], [0], [], [], wf⟩ : DotDims ⟨2, ![a, w]⟩ ⟨2, ![b, w]⟩ ⟨2, ![a, b]⟩) w rfl rfl d
  have l2 : (⟨[1], [1], [0], [0], [], [], wf⟩ : DotDims ⟨2, ![a, w]⟩ ⟨2, ![b, w]⟩ ⟨2, ![a, b]⟩).lhsIdx (ix2 p k)
      ((contrEquiv1 _ w rfl rfl).symm d) = ix2 p d := by
    funext ax; apply Fin.ext
    match ax with
    | ⟨0, _⟩ => simp [DotDims.lhsIdx]; rfl
    | ⟨1, _⟩ => simp [DotDims.lhsIdx]; exact c2
  have r2 : (⟨[1], [1], [0], [0], [], [], wf⟩ : DotDims ⟨2, ![a, w]⟩ ⟨2, ![b, w]⟩ ⟨2, ![a, b]⟩).rhsIdx (ix2 p k)
      ((contrEquiv1 _ w rfl rfl).symm d) = ix2 k d := by
    funext ax; apply Fin.ext
    match ax with
    | ⟨0, _⟩ => simp [DotDims.rhsIdx]; rfl
    | ⟨1, _⟩ => simp [DotDims.rhsIdx]; exact c2
  rw [l2, r2]

/-- On the extended reals, the vector unit's maximum over the columns of an `[a, b]` matrix is, at row `p`, the fold of
    `max` over that row's `b` entries from the accumulator's value. -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ src acc h hφ hacc (ix1 p)
      = (Finset.univ : Finset (Fin b)).fold max (FloatOps.ofBits (F := Ideal) φ acc) (fun k => src (ix2 p k)) := by
  refine (Ideal.multiReduction_maximumf_single src acc h hφ hacc (ix1 p)).trans ?_
  refine congrArg (Finset.fold max _ · _) (funext fun k => congrArg src ?_)
  funext c; apply Fin.ext
  match c with
  | ⟨0, _⟩ => rfl
  | ⟨1, _⟩ => rfl

/-- A unit-stride slice of `w` columns from column `o` of an `[n, W]` matrix reads, at `(r, j)`, the matrix at `(r, o + j)`. -/
theorem sliceCols_apply {n W w : ℕ} (o : ℕ) (x : (⟨2, ![n, W]⟩ : Shape).Idx → α)
    (h : (⟨2, ![n, W]⟩ : Shape).Slices ![0, o] ⟨2, ![n, w]⟩) (r : Fin n) (j : Fin w) (q : Fin W) (hq : q.val = o + j.val) :
    extractStridedSlice ⟨2, ![n, w]⟩ ![0, o] x h (ix2 r j) = x (ix2 r q) :=
  extractStridedSlice_apply ![0, o] x h (ix2 r j) (ix2 r q) fun ax => by
    match ax with
    | ⟨0, _⟩ => show r.val = 0 + r.val; omega
    | ⟨1, _⟩ => show q.val = o + j.val; exact hq

end Cert.LibFlashForms

end
-- ==== Proof.KernelIdeal.AccValue.lean ====
/-
  The tiled product  out = x · mwᵀ  on the grid 8 × 2 × 8: what its result array holds after the run, on the
  extended reals.

  One step of the body adds to the accumulator, entry by entry, the partial sum over one block of 512 positions of the
  contraction axis:  (a + x_blk · mw_blkᵀ)(p, q) = a(p, q) + Σ_{d < 512} x_blk(p, d) · mw_blk(q, d);  the accumulator a
  tile starts from is zero.  At point (bi · 2 + bj) · 8 + kb the x block is rows bi·1024 …, columns kb·512 … of x and the
  mw block rows bj·2048 …, columns kb·512 … of mw.  So after the point with K-block kb the accumulator holds, at (p, q),
  the running total of the first kb + 1 partial sums of row bi·1024 + p of x against row bj·2048 + q of mw; after kb = 7
  that is the whole contraction, and that point writes the tile (bi, bj) back.  The 16 tiles cover the result array.
-/
import proofs.«154603_j17849884082830_2_alg».proof.Proof.KernelIdeal.AccData
import proofs.«154603_j17849884082830_2_alg».proof.Proof.Spec
import proofs.«154603_j17849884082830_2_alg».proof.Proof.LibFlashForms
import Idealize.ShloMosaic.Lib.Pipeline.Value
import Idealize.ShloMosaic.Lib.ValueIdx
import Idealize.ShloMosaic.PureOps.Ideal.Laws

noncomputable section

namespace Cert.KernelIdeal.AccValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand
open scoped BigOperators

/-! ## One step of the body at an entry -/

/-- The zero matrix a tile's accumulator starts from. -/
theorem zero_apply (p : Fin 1024) (q : Fin 2048) : k1_pay1 (F := Ideal) (ix2 p q) = 0 := by
  unfold k1_pay1
  rw [shapeCast_self]
  exact Ideal.ofBits_zero_f32

/-- One step: the accumulator's entry plus the partial sum over the block's 512 positions. -/
theorem step_apply (x : Vec Ideal S1024x512 .f32) (w : Vec Ideal S2048x512 .bf16) (a : Vec Ideal S1024x2048 .f32)
    (p : Fin 1024) (q : Fin 2048) :
    k1_pay2 x w a (ix2 p q) = a (ix2 p q) + ∑ d : Fin 512, x (ix2 p d) * w (ix2 q d) := by
  unfold k1_pay2
  rw [shapeCast_self, shapeCast_self]
  refine congrArg (a (ix2 p q) + ·) ?_
  exact Cert.LibFlashForms.matmul_nt_zero_apply dot_S1024x512_S2048x512_S1024x2048_1_1_0_0_n_n_wf none
    (truncf .bf16 x bitsLt_bf16_f32) w p q

/-! ## Where a point's blocks sit -/

/-- The printed index maps over the grid: point `t` is tile row `t / 16`, tile column `t / 8 % 2`, K-block `t % 8`. -/
theorem idx_facts : ∀ t : Fin cfg1.N,
    win1_0.index t (0 : Fin 2) = t.val / 16 ∧ win1_0.index t (1 : Fin 2) = t.val % 8
    ∧ win1_1.index t (0 : Fin 2) = t.val / 8 % 2 ∧ win1_1.index t (1 : Fin 2) = t.val % 8
    ∧ win1_2.index t (0 : Fin 2) = t.val / 16 ∧ win1_2.index t (1 : Fin 2) = t.val / 8 % 2 :=
  (by decide +kernel : ∀ t : Fin grid1.N, _)

section
variable (V : (c : Dev nD) → (b : Ref sig .tc) → Buf (Elt Ideal) ((c : Thread nD τ).loc b))

/-- The x block at point `t`, at `(p, d)`: x at row `(t / 16) · 1024 + p`, column `(t % 8) · 512 + d`. -/
theorem xblk_apply (c : Dev nD) (t : Fin cfg1.N) (p : Fin 1024) (d : Fin 512) (r : Fin 8192) (k : Fin 4096)
    (hr : r.val = t.val / 16 * 1024 + p.val) (hk : k.val = t.val % 8 * 512 + d.val) :
    (iblk1 V c 0 t : Vec Ideal S1024x512 .f32) (ix2 p d) = (V c main_arg0 : S8192x4096.Idx → Elt Ideal .f32) (ix2 r k) := by
  obtain ⟨e0, e1, -, -, -, -⟩ := idx_facts t
  unfold iblk1
  rw [View.read_apply]
  show V c main_arg0 _ = V c main_arg0 _
  refine congrArg (V c main_arg0) ?_
  funext a; apply Fin.ext
  match a with
  | ⟨0, _⟩ => show win1_0.index t (0 : Fin 2) * 1024 + 1 * p.val = r.val; omega
  | ⟨1, _⟩ => show win1_0.index t (1 : Fin 2) * 512 + 1 * d.val = k.val; omega

/-- The mw block at point `t`, at `(q, d)`: mw at row `(t / 8 % 2) · 2048 + q`, column `(t % 8) · 512 + d`. -/
theorem wblk_apply (c : Dev nD) (t : Fin cfg1.N) (q : Fin 2048) (d : Fin 512) (o : Fin 4096) (k : Fin 4096)
    (ho : o.val = t.val / 8 % 2 * 2048 + q.val) (hk : k.val = t.val % 8 * 512 + d.val) :
    (iblk1 V c 1 t : Vec Ideal S2048x512 .bf16) (ix2 q d) = (V c main_v0 : S4096x4096.Idx → Elt Ideal .bf16) (ix2 o k) := by
  obtain ⟨-, -, e0, e1, -, -⟩ := idx_facts t
  unfold iblk1
  rw [View.read_apply]
  show V c main_v0 _ = V c main_v0 _
  refine congrArg (V c main_v0) ?_
  funext a; apply Fin.ext
  match a with
  | ⟨0, _⟩ => show win1_1.index t (0 : Fin 2) * 2048 + 1 * q.val = o.val; omega
  | ⟨1, _⟩ => show win1_1.index t (1 : Fin 2) * 512 + 1 * d.val = k.val; omega

/-- x as the product region finds it, an array of extended reals. -/
abbrev xArr (c : Dev nD) : (⟨2, ![8192, 4096]⟩ : Shape).Idx → EReal := V c main_arg0
/-- The masked weight as the product region finds it, an array of extended reals. -/
abbrev wArr (c : Dev nD) : (⟨2, ![4096, 4096]⟩ : Shape).Idx → EReal := V c main_v0

/-! ## The accumulator after a point -/

/-- One point's step at an entry, over the arrays: the accumulator's entry plus the partial sum of the point's K-block,
    spelled as the running total's step spells it (the block's number modulo 8, accumulated onto a zero). -/
theorem point_apply (c : Dev nD) (t : Fin cfg1.N) (a : Vec Ideal S1024x2048 .f32) (p : Fin 1024) (q : Fin 2048)
    (r : Fin 8192) (o : Fin 4096) (hr : r.val = t.val / 16 * 1024 + p.val) (ho : o.val = t.val / 8 % 2 * 2048 + q.val) :
    k1_pay2 (iblk1 V c 0 t) (iblk1 V c 1 t) a (ix2 p q)
      = a (ix2 p q) + (0 + ∑ d : Fin 512,
          xArr V c (ix2 r ⟨(t.val % 8 % 8) * 512 + d.val, by omega⟩)
            * wArr V c (ix2 o ⟨(t.val % 8 % 8) * 512 + d.val, by omega⟩)) := by
  refine (step_apply (iblk1 V c 0 t) (iblk1 V c 1 t) a p q).trans ?_
  rw [zero_add]
  refine congrArg (a (ix2 p q) + ·) (Finset.sum_congr rfl fun d _ => ?_)
  rw [xblk_apply V c t p d r ⟨(t.val % 8 % 8) * 512 + d.val, by omega⟩ hr
      (by show t.val % 8 % 8 * 512 + d.val = t.val % 8 * 512 + d.val; omega),
    wblk_apply V c t q d o ⟨(t.val % 8 % 8) * 512 + d.val, by omega⟩ ho
      (by show t.val % 8 % 8 * 512 + d.val = t.val % 8 * 512 + d.val; omega)]

/-- After point `n` (tile row `n / 16`, tile column `n / 8 % 2`, K-block `n % 8`) the accumulator holds, at `(p, q)`, the
    running total of the first `n % 8 + 1` partial sums of row `(n / 16) · 1024 + p` of x against row
    `(n / 8 % 2) · 2048 + q` of mw: by induction on the point. -/
theorem accAt_apply (c : Dev nD) : ∀ (n : ℕ) (hn : n < cfg1.N) (p : Fin 1024) (q : Fin 2048) (r : Fin 8192) (o : Fin 4096),
    r.val = n / 16 * 1024 + p.val → o.val = n / 8 % 2 * 2048 + q.val →
    accAt V c n hn (ix2 p q) = Cert.Expander.accUpTo (xArr V c) (wArr V c) r o (n % 8 + 1)
  | 0, hn, p, q, r, o, hr, ho => by
    refine (congrFun (accAt_first V c ⟨0, hn⟩ rfl) (ix2 p q)).trans ?_
    refine (point_apply V c ⟨0, hn⟩ _ p q r o hr ho).trans ?_
    rw [zero_apply]
    rfl
  | n + 1, hn, p, q, r, o, hr, ho => by
    by_cases h : (n + 1) % 8 = 0
    · refine (congrFun (accAt_first V c ⟨n + 1, hn⟩ h) (ix2 p q)).trans ?_
      refine (point_apply V c ⟨n + 1, hn⟩ _ p q r o hr ho).trans ?_
      rw [zero_apply, show (n + 1) % 8 + 1 = 0 + 1 from by rw [h], Cert.Expander.accUpTo_succ, Cert.Expander.accUpTo_zero]
      simp only [show (⟨n + 1, hn⟩ : Fin cfg1.N).val % 8 = 0 from h]
    · refine (congrFun (accAt_later V c ⟨n + 1, hn⟩ h) (ix2 p q)).trans ?_
      refine (point_apply V c ⟨n + 1, hn⟩ _ p q r o hr ho).trans ?_
      have ih := accAt_apply c n (Nat.lt_of_succ_lt hn) p q r o
        (by rw [hr]; show (n + 1) / 16 * 1024 + p.val = n / 16 * 1024 + p.val; omega)
        (by rw [ho]; show (n + 1) / 8 % 2 * 2048 + q.val = n / 8 % 2 * 2048 + q.val; omega)
      have e : (n + 1) % 8 + 1 = (n % 8 + 1) + 1 := by omega
      rw [e, Cert.Expander.accUpTo_succ]
      have e2 : (n % 8 + 1) % 8 = (n + 1) % 8 % 8 := by omega
      show accAt V c n _ (ix2 p q) + _ = _
      rw [ih]
      simp only [e2]

/-! ## What the last K-block's point writes back, and the array after the run -/

/-- At a tile's last K-block the point writes back the tile of the layer's result: the accumulator then holds the running
    total after all 8 partial sums, which is the whole contraction. -/
theorem flushed_eq (c : Dev nD) (t : Fin cfg1.N) (hf : (cfg1.win 2).flush t = true) :
    (dat1 V c).flushed 2 t
      = ((cfg1.win 2).blk t).view.read (Elt Ideal) (Cert.Expander.expander (xArr V c) (wArr V c)) := by
  have hN : cfg1.N = 128 := N_1
  have ht : t.val < cfg1.N := t.isLt
  have h7 : t.val % 8 = 7 := (flush1_2 t).mp hf
  obtain ⟨-, -, -, -, e0, e1⟩ := idx_facts t
  show (cfg1.win 2).cut (grid1.coords t) ((dat1 V c).after 2 t) = _
  rw [after1_2]
  funext j
  obtain ⟨p, q, rfl⟩ : ∃ (p : Fin 1024) (q : Fin 2048), (j : S1024x2048.Idx) = ix2 p q :=
    ⟨j 0, j 1, eq_ix2 (n0 := 1024) (n1 := 2048) j⟩
  show accAt V c t.val t.isLt (ix2 p q)
    = Cert.Expander.expander (xArr V c) (wArr V c) (((cfg1.win 2).blk t).view.emb (ix2 p q))
  have hemb : (((cfg1.win 2).blk t).view.emb (ix2 p q) : S8192x4096.Idx)
      = ix2 (⟨t.val / 16 * 1024 + p.val, by omega⟩ : Fin 8192) (⟨t.val / 8 % 2 * 2048 + q.val, by omega⟩ : Fin 4096) := by
    funext a; apply Fin.ext
    match a with
    | ⟨0, _⟩ => show win1_2.index t (0 : Fin 2) * 1024 + 1 * p.val = t.val / 16 * 1024 + p.val; omega
    | ⟨1, _⟩ => show win1_2.index t (1 : Fin 2) * 2048 + 1 * q.val = t.val / 8 % 2 * 2048 + q.val; omega
  rw [hemb, Cert.Expander.expander_fold]
  exact (accAt_apply V c t.val t.isLt p q ⟨t.val / 16 * 1024 + p.val, by omega⟩ ⟨t.val / 8 % 2 * 2048 + q.val, by omega⟩
    rfl rfl).trans (by rw [h7])

/-- An index of the result array is in point `t`'s tile iff each coordinate is in the tile's range on its axis. -/
theorem mem_tile (t : Fin cfg1.N) (i : S8192x4096.Idx) :
    i ∈ ((cfg1.win 2).blk t).view.set
      ↔ ∀ a : Fin 2, win1_2.index t a * S1024x2048.size a ≤ (i a).val
          ∧ (i a).val < win1_2.index t a * S1024x2048.size a + S1024x2048.size a := by
  show i ∈ ((View.whole main_v1).slice (win1_2.rect t)).set ↔ _
  rw [View.set_slice_whole, Rect.mem_set_unit]
  exact Iff.rfl

/-- Every index of the result array is in the tile some last-K-block point writes back: entry `(r, o)` in that of the
    point `((r / 1024) · 2 + o / 2048) · 8 + 7`. -/
theorem covered (i : S8192x4096.Idx) :
    ∃ t : Fin cfg1.N, (cfg1.win 2).flush t = true ∧ i ∈ ((cfg1.win 2).blk t).view.set := by
  have hN : cfg1.N = 128 := N_1
  have hi0 : (i 0).val < 8192 := (i 0).isLt
  have hi1 : (i 1).val < 4096 := (i 1).isLt
  have hlt : ((i 0).val / 1024 * 2 + (i 1).val / 2048) * 8 + 7 < cfg1.N := by omega
  refine ⟨⟨((i 0).val / 1024 * 2 + (i 1).val / 2048) * 8 + 7, hlt⟩, (flush1_2 _).mpr (by show (((i 0).val / 1024 * 2 + (i 1).val / 2048) * 8 + 7) % 8 = 7; omega), ?_⟩
  obtain ⟨-, -, -, -, e0, e1⟩ := idx_facts ⟨((i 0).val / 1024 * 2 + (i 1).val / 2048) * 8 + 7, hlt⟩
  have v : (⟨((i 0).val / 1024 * 2 + (i 1).val / 2048) * 8 + 7, hlt⟩ : Fin cfg1.N).val
      = ((i 0).val / 1024 * 2 + (i 1).val / 2048) * 8 + 7 := rfl
  rw [v] at e0 e1
  rw [mem_tile]
  intro a
  match a with
  | ⟨0, _⟩ =>
    show win1_2.index _ (0 : Fin 2) * 1024 ≤ (i 0).val ∧ (i 0).val < win1_2.index _ (0 : Fin 2) * 1024 + 1024
    rw [e0]; omega
  | ⟨1, _⟩ =>
    show win1_2.index _ (1 : Fin 2) * 2048 ≤ (i 1).val ∧ (i 1).val < win1_2.index _ (1 : Fin 2) * 2048 + 2048
    rw [e1]; omega

/-- What the product region leaves in its result array: the layer over x and the masked weight as the region found them. -/
theorem acc_final (c : Dev nD) :
    (dat1 V c).arrAt 2 cfg1.N = Cert.Expander.expander (xArr V c) (wArr V c) :=
  (dat1 V c).arrAt_eq_of_cover 2 (Cert.Expander.expander (xArr V c) (wArr V c)) (fun t hf => flushed_eq V c t hf) (covered)

end

end Cert.KernelIdeal.AccValue

end
-- ==== Proof.KernelIdeal.Result.lean ====
/-
  What the idealized kernel's run leaves in its result array, as the layer's function of the arguments.

  The program is two regions. The masking region leaves in the masked-weight array, entry by entry, weight · mask of the
  launch arrays; the product region, entered with that array and with x as launched, leaves in the result array the
  layer  out(r, o) = Σ_k x(r, k) · mw(o, k)  of what it reads. Composing the two, the result array ends at the layer
  applied to x and to weight ⊙ mask of the launch arrays, and the three argument arrays end as launched.
-/
import proofs.«154603_j17849884082830_2_alg».proof.Proof.KernelIdeal.Run
import proofs.«154603_j17849884082830_2_alg».proof.Proof.KernelIdeal.MaskValue
import proofs.«154603_j17849884082830_2_alg».proof.Proof.KernelIdeal.AccValue
import proofs.«154603_j17849884082830_2_alg».proof.Proof.Spec

noncomputable section

namespace Cert.KernelIdeal.Result

open Idealize.ShloMosaic Idealize.ShloMosaic.TcCoe Idealize.SL.Sem
open Cert.KernelIdeal Cert.KernelIdeal.Gen Cert.KernelIdeal.Hand

/-- The product region's fold, entered from what the masking region leaves, is the layer of the launch arrays. -/
theorem value (m : (ℓ : Loc nD τ sig) → Buf (Elt Ideal) ℓ) (c : Dev nD) :
    (dat1 (F := Ideal) (V1 m) c).arrAt 2 cfg1.N
      = Cert.Expander.expander (m ((c.tc : Thread nD τ).loc main_arg0))
          (Cert.Expander.masked (m ((c.tc : Thread nD τ).loc main_arg1)) (m ((c.tc : Thread nD τ).loc main_arg2))) :=
  (Cert.KernelIdeal.AccValue.acc_final (V1 m) c).trans
    (congrArg₂ Cert.Expander.expander (V1_main_arg0 m c)
      ((V1_main_v0 m c).trans (Cert.KernelIdeal.MaskValue.mask_final (V0 m) c)))

/-- THE RUN AT THE IDEAL INSTANCE: from any memory with zero counters every weakly fair execution of the program
    terminates, nothing faulting; the result array ends at the layer of the launch contents of x, weight and mask, and
    each argument array at its launch contents. -/
theorem result (m : (ℓ : Loc nD τ sig) → Buf (Elt Ideal) ℓ) (ρ : Dev nD → PrngReg) :
    θ_run (Cert.KernelIdeal.defs (F := Ideal)) (onTc (τ := τ) (main (F := Ideal))) ⟨m, fun _ => 0, ρ⟩ (fun r => ∀ c : Dev nD,
      r.2.mem ((c.tc : Thread nD τ).loc main_v1)
        = Cert.Expander.expander (m ((c.tc : Thread nD τ).loc main_arg0))
            (Cert.Expander.masked (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run (Cert.KernelIdeal.defs (F := Ideal)) _ _).mono (fun _ h c => ⟨(h c).1.trans (value m c), (h c).2⟩)
    (run_main (F := Ideal) m ρ)

end Cert.KernelIdeal.Result

end
-- ==== Proof.RefIsSpec.lean ====
/-
  The reference program's result, at the ideal instance, is the masked linear layer.

  The reference multiplies weight and mask entry by entry, transposes the product, and contracts x's second axis with
  the transpose's first: its element (r, o) is Σ_k x(r, k) · T(k, o) with T(k, o) = weight(o, k) · mask(o, k). Reading
  the transpose back at its source index turns this into the layer's defining sum over the last axis of both operands;
  nothing but the identification of the indices is involved.
-/
import proofs.«154603_j17849884082830_2_alg».proof.Proof.Gen.ReferenceIdeal.Read
import proofs.«154603_j17849884082830_2_alg».proof.Proof.Spec

noncomputable section

open scoped BigOperators
open Idealize.ShloMosaic Idealize.ShloMosaic.ValueIdx

namespace Cert.Expander.Ref

open Cert.ReferenceIdeal Cert.ReferenceIdeal.Read

/-- The left operand's index at contraction position k is (r, k). -/
theorem lidx_eq (i : S8192x4096.Idx) (k : Fin 4096) :
    lidx_main_v2 i k = ix2 ⟨(i 0).val, (i 0).isLt⟩ k :=
  funext fun a => Fin.ext (by match a with | ⟨0, _⟩ => rfl | ⟨1, _⟩ => rfl)

/-- The right operand is a transpose: its index (k, o), read back at the transpose's source, is (o, k). -/
theorem ridx_eq (i : S8192x4096.Idx) (k : Fin 4096) :
    idx_main_v1 (ridx_main_v2 i k) = ix2 ⟨(i 1).val, (i 1).isLt⟩ k :=
  funext fun a => Fin.ext (by match a with | ⟨0, _⟩ => rfl | ⟨1, _⟩ => rfl)

/-- The reference's result array is the layer applied to x and the masked weight. -/
theorem ref_is_spec (x0 : (⟨Cert.ReferenceIdeal.S8192x4096, .f32⟩ : BufTy).Contents (Elt Ideal))
    (x1 x2 : (⟨Cert.ReferenceIdeal.S4096x4096, .f32⟩ : BufTy).Contents (Elt Ideal)) :
    Cert.ReferenceIdeal.Read.val_main_v2 (F := Ideal) x0 x1 x2
      = Cert.Expander.expander x0 (Cert.Expander.masked x1 x2) := by
  funext i
  rw [val_main_v2_apply]
  refine Finset.sum_congr rfl fun k _ => ?_
  rw [val_main_v1_apply, val_main_v0_apply, lidx_eq, ridx_eq, Ideal.mulf_def]
  rfl

end Cert.Expander.Ref

end
-- ==== Proof.lean ====
/-
  The masked linear layer  out = x · (weight ⊙ mask)ᵀ  (x of 8192 × 4096, weight and mask of 4096 × 4096): the tiled
  kernel against the one-line reference.

  THE FRAMES. Each of the three programs, from any memory with zero counters, terminates in every weakly fair
  execution without a fault and leaves its three argument arrays as launched: the kernel (word level and idealized) as
  two pipelined regions one after the other, the reference as three host operations.

  THE IDEALIZATION rewrote nothing: the idealized kernel is the kernel's own text read on the extended reals.

  THE VALUES, on the extended reals (every operation exact, a change of float format the identity). The reference
  multiplies weight and mask entry by entry, transposes, and contracts: its result at (r, o) is
  Σ_{k < 4096} x(r, k) · (weight(o, k) · mask(o, k)). The kernel first stores the entrywise product weight ⊙ mask, then
  walks the contraction axis in 8 blocks of 512 positions, keeping for each output tile a running total that starts at
  zero and to which each block adds its partial sum Σ_{d < 512} x(r, 512·b + d) · mw(o, 512·b + d); after the eighth block
  the total is written out. The two agree by the one law that a sum over 8 · 512 consecutive positions is the sum over
  the 8 blocks of the sums inside a block, which holds in any commutative additive monoid, so at the infinities of the
  extended reals too: no finiteness of the inputs is used.
-/
import proofs.«154603_j17849884082830_2_alg».proof.Defs
import proofs.«154603_j17849884082830_2_alg».proof.Proof.Gen.Kernel
import proofs.«154603_j17849884082830_2_alg».proof.Proof.Gen.KernelIdeal
import proofs.«154603_j17849884082830_2_alg».proof.Proof.Gen.ReferenceIdeal
import proofs.«154603_j17849884082830_2_alg».proof.Proof.Gen.ReferenceIdeal.Run
import proofs.«154603_j17849884082830_2_alg».proof.Proof.Gen.ReferenceIdeal.Read
import proofs.«154603_j17849884082830_2_alg».proof.Proof.Gen.Pre_finite_inputs
import proofs.«154603_j17849884082830_2_alg».proof.Proof.Kernel.Run
import proofs.«154603_j17849884082830_2_alg».proof.Proof.KernelIdeal.Run
import proofs.«154603_j17849884082830_2_alg».proof.Proof.KernelIdeal.Result
import proofs.«154603_j17849884082830_2_alg».proof.Proof.RefIsSpec

noncomputable section

namespace Cert.Proof

open Idealize.ShloMosaic Idealize.SL.Sem

/-- The word-level kernel runs and leaves its arguments as launched. -/
theorem frame_k : Cert.frame_Kernel := fun m ρ _ => Cert.Kernel.Hand.frame (F := Bits) m ρ

/-- So does the idealized kernel. -/
theorem frame_ki : Cert.frame_KernelIdeal := fun m ρ _ => Cert.KernelIdeal.Hand.frame (F := Ideal) m ρ

/-- So does the reference: its run's post without the result's equation. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation: nothing to preserve. -/
theorem preserves : Cert.preserves_Kernel_KernelIdeal := trivial

/-- On the extended reals both programs end with the result array at the layer  Σ_k x(r, k) · (weight(o, k) · mask(o, k))
    of the argument arrays: the kernel by its blockwise running total, the reference by its single contraction of the
    transposed entrywise product; run from memories that agree on the arguments, the two results are equal. -/
theorem algebraic : Cert.algebraic_KernelIdeal_ReferenceIdeal := by
  intro m ρ m' ρ' _ hagree
  refine ⟨_, Cert.KernelIdeal.Result.result m ρ, ?_⟩
  refine (θ_run Cert.ReferenceIdeal.defs _ _).mono (fun _ h c => ⟨(h c).1.trans ?_, (h c).2⟩)
    (Cert.ReferenceIdeal.Value.run (F := Ideal) m' ρ')
  refine ((Cert.ReferenceIdeal.Read.val_main_v2_eq (F := Ideal) _ _ _).trans (Cert.Expander.Ref.ref_is_spec _ _ _)).trans ?_
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
